-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8x64x128x128 : Shape := ⟨5, ![4, 8, 64, 128, 128]⟩
abbrev S_ : Shape := ⟨0, ![]⟩

class Facts : Prop where
  bcast_S_S4x8x64x128x128 : S_.BroadcastsInDim S4x8x64x128x128 (![] : Fin 0 → Fin S4x8x64x128x128.rank)
  reducesTo_S4x8x64x128x128_S_d0_1_2_3_4 : S4x8x64x128x128.ReducesTo [0, 1, 2, 3, 4] S_
  h_S_ : 0 < S_.numel

variable [Facts]

def fn {F : FTy → Type} [FloatOps F] (main_arg0 : FVec F S4x8x64x128x128 .f32) : IVec S_ 1 :=
  let main_v0 : FVec F S4x8x64x128x128 .f32 := Host.absf main_arg0
  let main_cst : FVec F S_ .f32 := constant S_ .f32 0x7F800000#32
  let main_v1 : FVec F S4x8x64x128x128 .f32 := broadcastInDim S4x8x64x128x128 ![] bcast_S_S4x8x64x128x128 main_cst
  let main_v2 : IVec S4x8x64x128x128 1 := cmpf .olt main_v0 main_v1
  let main_c : IVec S_ 1 := constantI S_ 1 1#1
  let main_v3 : IVec S_ 1 := (fun x v => Host.reduce IntOp.andi x v reducesTo_S4x8x64x128x128_S_d0_1_2_3_4 h_S_) main_v2 main_c
  main_v3
-- ==== Kernel.lean ====
abbrev S4x8x64x128x128 : Shape := ⟨5, ![4, 8, 64, 128, 128]⟩
abbrev S4x1x128x256x256 : Shape := ⟨5, ![4, 1, 128, 256, 256]⟩
abbrev S1x8x8x128x128 : Shape := ⟨5, ![1, 8, 8, 128, 128]⟩
abbrev S1x1x16x256x256 : Shape := ⟨5, ![1, 1, 16, 256, 256]⟩
abbrev S1x1x8x128x128 : Shape := ⟨5, ![1, 1, 8, 128, 128]⟩
abbrev S8x128x128 : Shape := ⟨3, ![8, 128, 128]⟩
abbrev S8x1x128x128 : Shape := ⟨4, ![8, 1, 128, 128]⟩
abbrev S8x2x128x128 : Shape := ⟨4, ![8, 2, 128, 128]⟩
abbrev S16x128x128 : Shape := ⟨3, ![16, 128, 128]⟩
abbrev S16x128x1x128 : Shape := ⟨4, ![16, 128, 1, 128]⟩
abbrev S16x128x2x128 : Shape := ⟨4, ![16, 128, 2, 128]⟩
abbrev S16x256x128 : Shape := ⟨3, ![16, 256, 128]⟩
abbrev S16x256x128x1 : Shape := ⟨4, ![16, 256, 128, 1]⟩
abbrev S16x256x128x2 : Shape := ⟨4, ![16, 256, 128, 2]⟩
abbrev S16x256x256 : Shape := ⟨3, ![16, 256, 256]⟩

abbrev nBuf : Space → Nat
  | .hbm => 2
  | .vmem => 4
  | .smem => 0
  | _ => 0

abbrev bufTy : (tb : Table) → Fin (tcTables nBuf tb) → BufTy
  | .hbm, ⟨0, _⟩ => ⟨S4x8x64x128x128, .f32⟩
  | .hbm, ⟨1, _⟩ => ⟨S4x1x128x256x256, .f32⟩
  | .local _ .vmem, ⟨0, _⟩ => ⟨S1x8x8x128x128, .f32⟩
  | .local _ .vmem, ⟨1, _⟩ => ⟨S1x8x8x128x128, .f32⟩
  | .local _ .vmem, ⟨2, _⟩ => ⟨S1x1x16x256x256, .f32⟩
  | .local _ .vmem, ⟨3, _⟩ => ⟨S1x1x16x256x256, .f32⟩
  | _, _ => ⟨S4x8x64x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 8], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S1x8x8x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x16x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S1x8x8x128x128_S1x1x8x128x128_0_0_0_0_0 : ∀ a, (![0, 0, 0, 0, 0] : Fin 5 → Nat) a + S1x1x8x128x128.size a ≤ S1x8x8x128x128.size a
  h_S1x1x8x128x128 : 0 < S1x1x8x128x128.numel
  shapeCasts_S1x1x8x128x128_S8x128x128 : S1x1x8x128x128.ShapeCasts S8x128x128
  inb_S1x8x8x128x128_S1x1x8x128x128_0_1_0_0_0 : ∀ a, (![0, 1, 0, 0, 0] : Fin 5 → Nat) a + S1x1x8x128x128.size a ≤ S1x8x8x128x128.size a
  inb_S1x8x8x128x128_S1x1x8x128x128_0_2_0_0_0 : ∀ a, (![0, 2, 0, 0, 0] : Fin 5 → Nat) a + S1x1x8x128x128.size a ≤ S1x8x8x128x128.size a
  inb_S1x8x8x128x128_S1x1x8x128x128_0_3_0_0_0 : ∀ a, (![0, 3, 0, 0, 0] : Fin 5 → Nat) a + S1x1x8x128x128.size a ≤ S1x8x8x128x128.size a
  inb_S1x8x8x128x128_S1x1x8x128x128_0_4_0_0_0 : ∀ a, (![0, 4, 0, 0, 0] : Fin 5 → Nat) a + S1x1x8x128x128.size a ≤ S1x8x8x128x128.size a
  inb_S1x8x8x128x128_S1x1x8x128x128_0_5_0_0_0 : ∀ a, (![0, 5, 0, 0, 0] : Fin 5 → Nat) a + S1x1x8x128x128.size a ≤ S1x8x8x128x128.size a
  inb_S1x8x8x128x128_S1x1x8x128x128_0_6_0_0_0 : ∀ a, (![0, 6, 0, 0, 0] : Fin 5 → Nat) a + S1x1x8x128x128.size a ≤ S1x8x8x128x128.size a
  inb_S1x8x8x128x128_S1x1x8x128x128_0_7_0_0_0 : ∀ a, (![0, 7, 0, 0, 0] : Fin 5 → Nat) a + S1x1x8x128x128.size a ≤ S1x8x8x128x128.size a
  shapeCasts_S8x128x128_S8x1x128x128 : S8x128x128.ShapeCasts S8x1x128x128
  concatenates_S8x1x128x128_S8x1x128x128_S8x2x128x128_d1 : Shape.Concatenates [S8x1x128x128, S8x1x128x128] S8x2x128x128 1
  shapeCasts_S8x2x128x128_S16x128x128 : S8x2x128x128.ShapeCasts S16x128x128
  shapeCasts_S16x128x128_S16x128x1x128 : S16x128x128.ShapeCasts S16x128x1x128
  concatenates_S16x128x1x128_S16x128x1x128_S16x128x2x128_d2 : Shape.Concatenates [S16x128x1x128, S16x128x1x128] S16x128x2x128 2
  shapeCasts_S16x128x2x128_S16x256x128 : S16x128x2x128.ShapeCasts S16x256x128
  shapeCasts_S16x256x128_S16x256x128x1 : S16x256x128.ShapeCasts S16x256x128x1
  concatenates_S16x256x128x1_S16x256x128x1_S16x256x128x2_d3 : Shape.Concatenates [S16x256x128x1, S16x256x128x1] S16x256x128x2 3
  shapeCasts_S16x256x128x2_S16x256x256 : S16x256x128x2.ShapeCasts S16x256x256
  inb_S1x1x16x256x256_S1x1x16x256x256_0_0_0_0_0 : ∀ a, (![0, 0, 0, 0, 0] : Fin 5 → Nat) a + S1x1x16x256x256.size a ≤ S1x1x16x256x256.size a
  h_S1x1x16x256x256 : 0 < S1x1x16x256x256.numel
  shapeCasts_S1x1x16x256x256_S16x256x256 : S1x1x16x256x256.ShapeCasts S16x256x256
  shapeCasts_S16x256x256_S1x1x16x256x256 : S16x256x256.ShapeCasts S1x1x16x256x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x8x128x128.size a ≤ S4x8x64x128x128.size a
  hwx0_0 : ∀ i : grid0.Coords, EltTy.bits .f32 = 32 ∨ (Rect.block (s := S4x8x64x128x128) S1x8x8x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x16x256x256.size a ≤ S4x1x128x256x256.size a
  hwx0_1 : ∀ i : grid0.Coords, EltTy.bits .f32 = 32 ∨ (Rect.block (s := S4x1x128x256x256) S1x1x16x256x256.size (cc0_transform_1 i) (hinb0_1 i)).WholeWords (EltTy.packing .f32)

variable [Facts₀]

abbrev win0_0 : Pipeline.Window sig grid0 :=
  Pipeline.Window.ofSpec (Memref.whole main_arg0) S1x8x8x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x16x256x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4x8x64x128x128 : Shape := ⟨5, ![4, 8, 64, 128, 128]⟩
abbrev S4x1x64x128x128 : Shape := ⟨5, ![4, 1, 64, 128, 128]⟩
abbrev S_ : Shape := ⟨0, ![]⟩
abbrev S4x1x64x1x128x128 : Shape := ⟨6, ![4, 1, 64, 1, 128, 128]⟩
abbrev S4x1x64x2x128x128 : Shape := ⟨6, ![4, 1, 64, 2, 128, 128]⟩
abbrev S4x1x128x128x128 : Shape := ⟨5, ![4, 1, 128, 128, 128]⟩
abbrev S4x1x128x128x1x128 : Shape := ⟨6, ![4, 1, 128, 128, 1, 128]⟩
abbrev S4x1x128x128x2x128 : Shape := ⟨6, ![4, 1, 128, 128, 2, 128]⟩
abbrev S4x1x128x256x128 : Shape := ⟨5, ![4, 1, 128, 256, 128]⟩
abbrev S4x1x128x256x128x1 : Shape := ⟨6, ![4, 1, 128, 256, 128, 1]⟩
abbrev S4x1x128x256x128x2 : Shape := ⟨6, ![4, 1, 128, 256, 128, 2]⟩
abbrev S4x1x128x256x256 : Shape := ⟨5, ![4, 1, 128, 256, 256]⟩

abbrev nBuf : Space → Nat
  | .hbm => 93
  | .vmem => 0
  | .smem => 0
  | _ => 0

abbrev bufTy : (tb : Table) → Fin (tcTables nBuf tb) → BufTy
  | .hbm, ⟨0, _⟩ => ⟨S4x8x64x128x128, .f32⟩
  | .hbm, ⟨1, _⟩ => ⟨S4x1x64x128x128, .f32⟩
  | .hbm, ⟨2, _⟩ => ⟨S4x1x64x128x128, .f32⟩
  | .hbm, ⟨3, _⟩ => ⟨S4x1x64x128x128, .f32⟩
  | .hbm, ⟨4, _⟩ => ⟨S4x1x64x128x128, .f32⟩
  | .hbm, ⟨5, _⟩ => ⟨S4x1x64x128x128, .f32⟩
  | .hbm, ⟨6, _⟩ => ⟨S4x1x64x128x128, .f32⟩
  | .hbm, ⟨7, _⟩ => ⟨S4x1x64x128x128, .f32⟩
  | .hbm, ⟨8, _⟩ => ⟨S4x1x64x128x128, .f32⟩
  | .hbm, ⟨9, _⟩ => ⟨S4x1x64x128x128, .f32⟩
  | .hbm, ⟨10, _⟩ => ⟨S_, .f32⟩
  | .hbm, ⟨11, _⟩ => ⟨S4x1x64x128x128, .f32⟩
  | .hbm, ⟨12, _⟩ => ⟨S4x1x64x128x128, .f32⟩
  | .hbm, ⟨13, _⟩ => ⟨S4x1x64x128x128, .f32⟩
  | .hbm, ⟨14, _⟩ => ⟨S_, .f32⟩
  | .hbm, ⟨15, _⟩ => ⟨S4x1x64x128x128, .f32⟩
  | .hbm, ⟨16, _⟩ => ⟨S4x1x64x128x128, .f32⟩
  | .hbm, ⟨17, _⟩ => ⟨S4x1x64x1x128x128, .f32⟩
  | .hbm, ⟨18, _⟩ => ⟨S4x1x64x1x128x128, .f32⟩
  | .hbm, ⟨19, _⟩ => ⟨S4x1x64x2x128x128, .f32⟩
  | .hbm, ⟨20, _⟩ => ⟨S4x1x128x128x128, .f32⟩
  | .hbm, ⟨21, _⟩ => ⟨S4x1x64x128x128, .f32⟩
  | .hbm, ⟨22, _⟩ => ⟨S_, .f32⟩
  | .hbm, ⟨23, _⟩ => ⟨S4x1x64x128x128, .f32⟩
  | .hbm, ⟨24, _⟩ => ⟨S4x1x64x128x128, .f32⟩
  | .hbm, ⟨25, _⟩ => ⟨S4x1x64x128x128, .f32⟩
  | .hbm, ⟨26, _⟩ => ⟨S_, .f32⟩
  | .hbm, ⟨27, _⟩ => ⟨S4x1x64x128x128, .f32⟩
  | .hbm, ⟨28, _⟩ => ⟨S4x1x64x128x128, .f32⟩
  | .hbm, ⟨29, _⟩ => ⟨S4x1x64x1x128x128, .f32⟩
  | .hbm, ⟨30, _⟩ => ⟨S4x1x64x1x128x128, .f32⟩
  | .hbm, ⟨31, _⟩ => ⟨S4x1x64x2x128x128, .f32⟩
  | .hbm, ⟨32, _⟩ => ⟨S4x1x128x128x128, .f32⟩
  | .hbm, ⟨33, _⟩ => ⟨S4x1x64x128x128, .f32⟩
  | .hbm, ⟨34, _⟩ => ⟨S_, .f32⟩
  | .hbm, ⟨35, _⟩ => ⟨S4x1x64x128x128, .f32⟩
  | .hbm, ⟨36, _⟩ => ⟨S4x1x64x128x128, .f32⟩
  | .hbm, ⟨37, _⟩ => ⟨S4x1x64x128x128, .f32⟩
  | .hbm, ⟨38, _⟩ => ⟨S_, .f32⟩
  | .hbm, ⟨39, _⟩ => ⟨S4x1x64x128x128, .f32⟩
  | .hbm, ⟨40, _⟩ => ⟨S4x1x64x128x128, .f32⟩
  | .hbm, ⟨41, _⟩ => ⟨S4x1x64x1x128x128, .f32⟩
  | .hbm, ⟨42, _⟩ => ⟨S4x1x64x1x128x128, .f32⟩
  | .hbm, ⟨43, _⟩ => ⟨S4x1x64x2x128x128, .f32⟩
  | .hbm, ⟨44, _⟩ => ⟨S4x1x128x128x128, .f32⟩
  | .hbm, ⟨45, _⟩ => ⟨S4x1x64x128x128, .f32⟩
  | .hbm, ⟨46, _⟩ => ⟨S_, .f32⟩
  | .hbm, ⟨47, _⟩ => ⟨S4x1x64x128x128, .f32⟩
  | .hbm, ⟨48, _⟩ => ⟨S4x1x64x128x128, .f32⟩
  | .hbm, ⟨49, _⟩ => ⟨S4x1x64x128x128, .f32⟩
  | .hbm, ⟨50, _⟩ => ⟨S_, .f32⟩
  | .hbm, ⟨51, _⟩ => ⟨S4x1x64x128x128, .f32⟩
  | .hbm, ⟨52, _⟩ => ⟨S4x1x64x128x128, .f32⟩
  | .hbm, ⟨53, _⟩ => ⟨S4x1x64x1x128x128, .f32⟩
  | .hbm, ⟨54, _⟩ => ⟨S4x1x64x1x128x128, .f32⟩
  | .hbm, ⟨55, _⟩ => ⟨S4x1x64x2x128x128, .f32⟩
  | .hbm, ⟨56, _⟩ => ⟨S4x1x128x128x128, .f32⟩
  | .hbm, ⟨57, _⟩ => ⟨S4x1x128x128x128, .f32⟩
  | .hbm, ⟨58, _⟩ => ⟨S_, .f32⟩
  | .hbm, ⟨59, _⟩ => ⟨S4x1x128x128x128, .f32⟩
  | .hbm, ⟨60, _⟩ => ⟨S4x1x128x128x128, .f32⟩
  | .hbm, ⟨61, _⟩ => ⟨S4x1x128x128x128, .f32⟩
  | .hbm, ⟨62, _⟩ => ⟨S_, .f32⟩
  | .hbm, ⟨63, _⟩ => ⟨S4x1x128x128x128, .f32⟩
  | .hbm, ⟨64, _⟩ => ⟨S4x1x128x128x128, .f32⟩
  | .hbm, ⟨65, _⟩ => ⟨S4x1x128x128x1x128, .f32⟩
  | .hbm, ⟨66, _⟩ => ⟨S4x1x128x128x1x128, .f32⟩
  | .hbm, ⟨67, _⟩ => ⟨S4x1x128x128x2x128, .f32⟩
  | .hbm, ⟨68, _⟩ => ⟨S4x1x128x256x128, .f32⟩
  | .hbm, ⟨69, _⟩ => ⟨S4x1x128x128x128, .f32⟩
  | .hbm, ⟨70, _⟩ => ⟨S_, .f32⟩
  | .hbm, ⟨71, _⟩ => ⟨S4x1x128x128x128, .f32⟩
  | .hbm, ⟨72, _⟩ => ⟨S4x1x128x128x128, .f32⟩
  | .hbm, ⟨73, _⟩ => ⟨S4x1x128x128x128, .f32⟩
  | .hbm, ⟨74, _⟩ => ⟨S_, .f32⟩
  | .hbm, ⟨75, _⟩ => ⟨S4x1x128x128x128, .f32⟩
  | .hbm, ⟨76, _⟩ => ⟨S4x1x128x128x128, .f32⟩
  | .hbm, ⟨77, _⟩ => ⟨S4x1x128x128x1x128, .f32⟩
  | .hbm, ⟨78, _⟩ => ⟨S4x1x128x128x1x128, .f32⟩
  | .hbm, ⟨79, _⟩ => ⟨S4x1x128x128x2x128, .f32⟩
  | .hbm, ⟨80, _⟩ => ⟨S4x1x128x256x128, .f32⟩
  | .hbm, ⟨81, _⟩ => ⟨S4x1x128x256x128, .f32⟩
  | .hbm, ⟨82, _⟩ => ⟨S_, .f32⟩
  | .hbm, ⟨83, _⟩ => ⟨S4x1x128x256x128, .f32⟩
  | .hbm, ⟨84, _⟩ => ⟨S4x1x128x256x128, .f32⟩
  | .hbm, ⟨85, _⟩ => ⟨S4x1x128x256x128, .f32⟩
  | .hbm, ⟨86, _⟩ => ⟨S_, .f32⟩
  | .hbm, ⟨87, _⟩ => ⟨S4x1x128x256x128, .f32⟩
  | .hbm, ⟨88, _⟩ => ⟨S4x1x128x256x128, .f32⟩
  | .hbm, ⟨89, _⟩ => ⟨S4x1x128x256x128x1, .f32⟩
  | .hbm, ⟨90, _⟩ => ⟨S4x1x128x256x128x1, .f32⟩
  | .hbm, ⟨91, _⟩ => ⟨S4x1x128x256x128x2, .f32⟩
  | .hbm, ⟨92, _⟩ => ⟨S4x1x128x256x256, .f32⟩
  | _, _ => ⟨S4x8x64x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_cst : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst_0 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst_1 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst_2 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_cst_3 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_4 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_cst_5 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_cst_6 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_cst_7 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_cst_8 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_cst_9 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_cst_10 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_cst_11 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_cst_12 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩

abbrev nD : Nat := 1
abbrev τ : Topo := Topo.v7x

variable {F : FTy → Type} [FloatOps F]

class Facts₀ : Prop where
  slices_S4x8x64x128x128_S4x1x64x128x128_0_0_0_0_0 : S4x8x64x128x128.Slices ![0, 0, 0, 0, 0] S4x1x64x128x128
  slices_S4x8x64x128x128_S4x1x64x128x128_0_1_0_0_0 : S4x8x64x128x128.Slices ![0, 1, 0, 0, 0] S4x1x64x128x128
  slices_S4x8x64x128x128_S4x1x64x128x128_0_2_0_0_0 : S4x8x64x128x128.Slices ![0, 2, 0, 0, 0] S4x1x64x128x128
  slices_S4x8x64x128x128_S4x1x64x128x128_0_3_0_0_0 : S4x8x64x128x128.Slices ![0, 3, 0, 0, 0] S4x1x64x128x128
  slices_S4x8x64x128x128_S4x1x64x128x128_0_4_0_0_0 : S4x8x64x128x128.Slices ![0, 4, 0, 0, 0] S4x1x64x128x128
  slices_S4x8x64x128x128_S4x1x64x128x128_0_5_0_0_0 : S4x8x64x128x128.Slices ![0, 5, 0, 0, 0] S4x1x64x128x128
  slices_S4x8x64x128x128_S4x1x64x128x128_0_6_0_0_0 : S4x8x64x128x128.Slices ![0, 6, 0, 0, 0] S4x1x64x128x128
  slices_S4x8x64x128x128_S4x1x64x128x128_0_7_0_0_0 : S4x8x64x128x128.Slices ![0, 7, 0, 0, 0] S4x1x64x128x128
  bcast_S_S4x1x64x128x128 : S_.BroadcastsInDim S4x1x64x128x128 (![] : Fin 0 → Fin S4x1x64x128x128.rank)
  bcast_S4x1x64x128x128_S4x1x64x1x128x128_0_1_2_4_5 : S4x1x64x128x128.BroadcastsInDim S4x1x64x1x128x128 (![0, 1, 2, 4, 5] : Fin 5 → Fin S4x1x64x1x128x128.rank)
  concatenates_S4x1x64x1x128x128_S4x1x64x1x128x128_S4x1x64x2x128x128_d3 : Shape.Concatenates [S4x1x64x1x128x128, S4x1x64x1x128x128] S4x1x64x2x128x128 3
  shapeCasts_S4x1x64x2x128x128_S4x1x128x128x128 : S4x1x64x2x128x128.ShapeCasts S4x1x128x128x128
  bcast_S_S4x1x128x128x128 : S_.BroadcastsInDim S4x1x128x128x128 (![] : Fin 0 → Fin S4x1x128x128x128.rank)
  bcast_S4x1x128x128x128_S4x1x128x128x1x128_0_1_2_3_5 : S4x1x128x128x128.BroadcastsInDim S4x1x128x128x1x128 (![0, 1, 2, 3, 5] : Fin 5 → Fin S4x1x128x128x1x128.rank)
  concatenates_S4x1x128x128x1x128_S4x1x128x128x1x128_S4x1x128x128x2x128_d4 : Shape.Concatenates [S4x1x128x128x1x128, S4x1x128x128x1x128] S4x1x128x128x2x128 4
  shapeCasts_S4x1x128x128x2x128_S4x1x128x256x128 : S4x1x128x128x2x128.ShapeCasts S4x1x128x256x128
  bcast_S_S4x1x128x256x128 : S_.BroadcastsInDim S4x1x128x256x128 (![] : Fin 0 → Fin S4x1x128x256x128.rank)
  bcast_S4x1x128x256x128_S4x1x128x256x128x1_0_1_2_3_4 : S4x1x128x256x128.BroadcastsInDim S4x1x128x256x128x1 (![0, 1, 2, 3, 4] : Fin 5 → Fin S4x1x128x256x128x1.rank)
  concatenates_S4x1x128x256x128x1_S4x1x128x256x128x1_S4x1x128x256x128x2_d5 : Shape.Concatenates [S4x1x128x256x128x1, S4x1x128x256x128x1] S4x1x128x256x128x2 5
  shapeCasts_S4x1x128x256x128x2_S4x1x128x256x256 : S4x1x128x256x128x2.ShapeCasts S4x1x128x256x256

variable [Facts₀]

class Facts : Prop extends Facts₀ where

variable [Facts]
-- ==== Proof.HaarSpec.lean ====
/-
  One output sample of the three-level inverse Haar transform, as a function of the eight subband samples it depends on.

  One synthesis step along an axis turns a low band `lo` and a high band `hi` into the even sample `(lo + hi) · c` and
  the odd sample `(lo − hi) · c`, where `c` is the single-precision constant nearest 1/√2, kept as its binary word (both
  programs carry the same word, so its value is never needed).  The transform applies the step along depth, then
  height, then width.  So the output sample at `(d, h, w)` is decided by the parities of `d`, `h`, `w` and by the eight
  subband samples at `(d / 2, h / 2, w / 2)`:

      out = step w (step h (step d s₀ s₄) (step d s₁ s₅)) (step h (step d s₂ s₆) (step d s₃ s₇))

  No algebraic law is used anywhere: both programs compute exactly this term, and what is proved is where each reads its
  samples.
-/
import Idealize.ShloMosaic.PureOps.Ideal
import Idealize.ShloMosaic.Lib.ValueIdx

noncomputable section

namespace Cert.Haar

open Idealize.ShloMosaic Idealize.ShloMosaic.ValueIdx

/-- The scale of a synthesis step: the f32 word `0x3F3504F3` read as an extended real. -/
def c : EReal := Ideal.ofBits .f32 0x3F3504F3#32

/-- One synthesis step at a coordinate `x` of the doubled axis: the even sample for even `x`, the odd one for odd `x`. -/
def step (x : ℕ) (lo hi : EReal) : EReal := if x % 2 = 0 then (lo + hi) * c else (lo - hi) * c

/-- The output sample at `(d, h, w)` from the eight subband samples `s k` at `(d / 2, h / 2, w / 2)`: the depth step pairs
    subband `k` with `k + 4`, the height step pairs the results `0,1` and `2,3`, the width step the last two. -/
def synth (d h w : ℕ) (s : Fin 8 → EReal) : EReal :=
  step w (step h (step d (s 0) (s 4)) (step d (s 1) (s 5))) (step h (step d (s 2) (s 6)) (step d (s 3) (s 7)))

/-- A step only looks at the parity of its coordinate. -/
theorem step_congr {x y : ℕ} (h : x % 2 = y % 2) (lo hi : EReal) : step x lo hi = step y lo hi := by
  unfold step; rw [h]

/-- The output sample only looks at the parity of the depth coordinate (a block of sixteen planes starts at an even plane). -/
theorem synth_congr {d d' : ℕ} (hd : d % 2 = d' % 2) (h w : ℕ) (s : Fin 8 → EReal) : synth d h w s = synth d' h w s := by
  unfold synth
  rw [step_congr hd (s 0) (s 4), step_congr hd (s 1) (s 5), step_congr hd (s 2) (s 6), step_congr hd (s 3) (s 7)]

/-- THE RESULT ARRAY, index by index: entry `(b, 0, d, h, w)` of the [4, 1, 128, 256, 256] output is `synth` of the
    eight channels of the [4, 8, 64, 128, 128] input at `(b, ·, d / 2, h / 2, w / 2)`. -/
def G (z : (⟨5, ![4, 8, 64, 128, 128]⟩ : Shape).Idx → EReal) : (⟨5, ![4, 1, 128, 256, 256]⟩ : Shape).Idx → EReal :=
  fun i => synth (i 2).val (i 3).val (i 4).val fun k =>
    z (ix5 (i 0) k (⟨(i 2).val / 2, by have := (i 2).isLt; change (i 2).val < 128 at this; omega⟩ : Fin 64)
      (⟨(i 3).val / 2, by have := (i 3).isLt; change (i 3).val < 256 at this; omega⟩ : Fin 128)
      (⟨(i 4).val / 2, by have := (i 4).isLt; change (i 4).val < 256 at this; omega⟩ : Fin 128))

theorem G_apply (z : (⟨5, ![4, 8, 64, 128, 128]⟩ : Shape).Idx → EReal) (b : Fin 4) (u : Fin 1) (d : Fin 128) (h w : Fin 256) :
    G z (ix5 b u d h w) = synth d.val h.val w.val fun k =>
      z (ix5 b k (⟨d.val / 2, by omega⟩ : Fin 64) (⟨h.val / 2, by omega⟩ : Fin 128) (⟨w.val / 2, by omega⟩ : Fin 128)) := rfl

end Cert.Haar

end
-- ==== Proof.InterleaveBlock.lean ====
/-
  Interleaving two arrays along an axis, read at an index.

  The inverse Haar step lays an "even" array `e` and an "odd" array `o` of one shape side by side on a new axis of
  extent 2 right behind axis `k`, and folds that axis into axis `k`: coordinate `x` of the doubled axis comes from
  `e` at `x / 2` when `x` is even and from `o` at `x / 2` when `x` is odd.  Here: that reading for each of the three
  axes of a rank-3 block, the new axis added by a shape cast.  Each proof follows the row-major position of the index
  through the two shape casts (the position is unchanged) and picks the piece of the concatenation by the parity.
-/
import Idealize.ShloMosaic.Lib.Pipeline.Value
import Idealize.ShloMosaic.Lib.ValueIdx

namespace Cert.Interleave

open Idealize.ShloMosaic Idealize.ShloMosaic.ValueIdx

variable {α : Type}

/-- Axis 0 of an 8×128×128 block doubled to 16×128×128: plane `d` is plane `d / 2` of `e` (`d` even) or of `o` (`d` odd). -/
theorem axis0_apply (e o : (⟨3, ![8, 128, 128]⟩ : Shape).Idx → α)
    (h1 : (⟨3, ![8, 128, 128]⟩ : Shape).ShapeCasts ⟨4, ![8, 1, 128, 128]⟩)
    (hc : Shape.Concatenates [⟨4, ![8, 1, 128, 128]⟩, ⟨4, ![8, 1, 128, 128]⟩] ⟨4, ![8, 2, 128, 128]⟩ 1)
    (h2 : (⟨4, ![8, 2, 128, 128]⟩ : Shape).ShapeCasts ⟨3, ![16, 128, 128]⟩)
    (d : Fin 16) (h : Fin 128) (w : Fin 128) :
    shapeCast ⟨3, ![16, 128, 128]⟩ (concatenate ⟨4, ![8, 2, 128, 128]⟩ 1
        [⟨⟨4, ![8, 1, 128, 128]⟩, shapeCast ⟨4, ![8, 1, 128, 128]⟩ e h1⟩,
         ⟨⟨4, ![8, 1, 128, 128]⟩, shapeCast ⟨4, ![8, 1, 128, 128]⟩ o h1⟩] hc) h2 (ix3 d h w)
      = if d.val % 2 = 0 then e (ix3 (⟨d.val / 2, by omega⟩ : Fin 8) h w)
        else o (ix3 (⟨d.val / 2, by omega⟩ : Fin 8) h w) := by
  rw [shapeCast_apply _ h2 (ix3 d h w) (ix4 (⟨d.val / 2, by omega⟩ : Fin 8) (⟨d.val % 2, by omega⟩ : Fin 2) h w) (by
    rw [Shape.rowMajor_val_four, Shape.rowMajor_val_three]
    show ((d.val / 2 * 2 + d.val % 2) * 128 + h.val) * 128 + w.val = (d.val * 128 + h.val) * 128 + w.val
    omega)]
  by_cases hp : d.val % 2 = 0
  · rw [if_pos hp, concatenate_pair_apply_left (t := ⟨4, ![8, 2, 128, 128]⟩) (s₁ := ⟨4, ![8, 1, 128, 128]⟩)
      (s₂ := ⟨4, ![8, 1, 128, 128]⟩) (1 : Fin 4) _ _ hc
      (ix4 (⟨d.val / 2, by omega⟩ : Fin 8) (⟨d.val % 2, by omega⟩ : Fin 2) h w) rfl
      (ix4 (⟨d.val / 2, by omega⟩ : Fin 8) (0 : Fin 1) h w) (fun b => match b with
        | ⟨0, _⟩ => rfl
        | ⟨1, _⟩ => by show 0 = d.val % 2; omega
        | ⟨2, _⟩ => rfl
        | ⟨3, _⟩ => rfl)]
    exact shapeCast_apply e h1 _ _ (by
      rw [Shape.rowMajor_val_four, Shape.rowMajor_val_three]
      show (d.val / 2 * 128 + h.val) * 128 + w.val = ((d.val / 2 * 1 + 0) * 128 + h.val) * 128 + w.val
      omega)
  · rw [if_neg hp, concatenate_pair_apply_right (t := ⟨4, ![8, 2, 128, 128]⟩) (s₁ := ⟨4, ![8, 1, 128, 128]⟩)
      (s₂ := ⟨4, ![8, 1, 128, 128]⟩) (1 : Fin 4) _ _ hc
      (ix4 (⟨d.val / 2, by omega⟩ : Fin 8) (⟨d.val % 2, by omega⟩ : Fin 2) h w) rfl rfl
      (ix4 (⟨d.val / 2, by omega⟩ : Fin 8) (0 : Fin 1) h w) (fun b => match b with
        | ⟨0, _⟩ => fun _ => rfl
        | ⟨1, _⟩ => fun hb => absurd rfl hb
        | ⟨2, _⟩ => fun _ => rfl
        | ⟨3, _⟩ => fun _ => rfl)
      (by show 0 + 1 = d.val % 2; omega)]
    exact shapeCast_apply o h1 _ _ (by
      rw [Shape.rowMajor_val_four, Shape.rowMajor_val_three]
      show (d.val / 2 * 128 + h.val) * 128 + w.val = ((d.val / 2 * 1 + 0) * 128 + h.val) * 128 + w.val
      omega)

/-- Axis 1 of a 16×128×128 block doubled to 16×256×128: row `h` is row `h / 2` of `e` (`h` even) or of `o` (`h` odd). -/
theorem axis1_apply (e o : (⟨3, ![16, 128, 128]⟩ : Shape).Idx → α)
    (h1 : (⟨3, ![16, 128, 128]⟩ : Shape).ShapeCasts ⟨4, ![16, 128, 1, 128]⟩)
    (hc : Shape.Concatenates [⟨4, ![16, 128, 1, 128]⟩, ⟨4, ![16, 128, 1, 128]⟩] ⟨4, ![16, 128, 2, 128]⟩ 2)
    (h2 : (⟨4, ![16, 128, 2, 128]⟩ : Shape).ShapeCasts ⟨3, ![16, 256, 128]⟩)
    (d : Fin 16) (h : Fin 256) (w : Fin 128) :
    shapeCast ⟨3, ![16, 256, 128]⟩ (concatenate ⟨4, ![16, 128, 2, 128]⟩ 2
        [⟨⟨4, ![16, 128, 1, 128]⟩, shapeCast ⟨4, ![16, 128, 1, 128]⟩ e h1⟩,
         ⟨⟨4, ![16, 128, 1, 128]⟩, shapeCast ⟨4, ![16, 128, 1, 128]⟩ o h1⟩] hc) h2 (ix3 d h w)
      = if h.val % 2 = 0 then e (ix3 d (⟨h.val / 2, by omega⟩ : Fin 128) w)
        else o (ix3 d (⟨h.val / 2, by omega⟩ : Fin 128) w) := by
  rw [shapeCast_apply _ h2 (ix3 d h w) (ix4 d (⟨h.val / 2, by omega⟩ : Fin 128) (⟨h.val % 2, by omega⟩ : Fin 2) w) (by
    rw [Shape.rowMajor_val_four, Shape.rowMajor_val_three]
    show ((d.val * 128 + h.val / 2) * 2 + h.val % 2) * 128 + w.val = (d.val * 256 + h.val) * 128 + w.val
    omega)]
  by_cases hp : h.val % 2 = 0
  · rw [if_pos hp, concatenate_pair_apply_left (t := ⟨4, ![16, 128, 2, 128]⟩) (s₁ := ⟨4, ![16, 128, 1, 128]⟩)
      (s₂ := ⟨4, ![16, 128, 1, 128]⟩) (2 : Fin 4) _ _ hc
      (ix4 d (⟨h.val / 2, by omega⟩ : Fin 128) (⟨h.val % 2, by omega⟩ : Fin 2) w) rfl
      (ix4 d (⟨h.val / 2, by omega⟩ : Fin 128) (0 : Fin 1) w) (fun b => match b with
        | ⟨0, _⟩ => rfl
        | ⟨1, _⟩ => rfl
        | ⟨2, _⟩ => by show 0 = h.val % 2; omega
        | ⟨3, _⟩ => rfl)]
    exact shapeCast_apply e h1 _ _ (by
      rw [Shape.rowMajor_val_four, Shape.rowMajor_val_three]
      show (d.val * 128 + h.val / 2) * 128 + w.val = ((d.val * 128 + h.val / 2) * 1 + 0) * 128 + w.val
      omega)
  · rw [if_neg hp, concatenate_pair_apply_right (t := ⟨4, ![16, 128, 2, 128]⟩) (s₁ := ⟨4, ![16, 128, 1, 128]⟩)
      (s₂ := ⟨4, ![16, 128, 1, 128]⟩) (2 : Fin 4) _ _ hc
      (ix4 d (⟨h.val / 2, by omega⟩ : Fin 128) (⟨h.val % 2, by omega⟩ : Fin 2) w) rfl rfl
      (ix4 d (⟨h.val / 2, by omega⟩ : Fin 128) (0 : Fin 1) w) (fun b => match b with
        | ⟨0, _⟩ => fun _ => rfl
        | ⟨1, _⟩ => fun _ => rfl
        | ⟨2, _⟩ => fun hb => absurd rfl hb
        | ⟨3, _⟩ => fun _ => rfl)
      (by show 0 + 1 = h.val % 2; omega)]
    exact shapeCast_apply o h1 _ _ (by
      rw [Shape.rowMajor_val_four, Shape.rowMajor_val_three]
      show (d.val * 128 + h.val / 2) * 128 + w.val = ((d.val * 128 + h.val / 2) * 1 + 0) * 128 + w.val
      omega)

/-- Axis 2 of a 16×256×128 block doubled to 16×256×256: column `w` is column `w / 2` of `e` (`w` even) or of `o` (`w` odd). -/
theorem axis2_apply (e o : (⟨3, ![16, 256, 128]⟩ : Shape).Idx → α)
    (h1 : (⟨3, ![16, 256, 128]⟩ : Shape).ShapeCasts ⟨4, ![16, 256, 128, 1]⟩)
    (hc : Shape.Concatenates [⟨4, ![16, 256, 128, 1]⟩, ⟨4, ![16, 256, 128, 1]⟩] ⟨4, ![16, 256, 128, 2]⟩ 3)
    (h2 : (⟨4, ![16, 256, 128, 2]⟩ : Shape).ShapeCasts ⟨3, ![16, 256, 256]⟩)
    (d : Fin 16) (h : Fin 256) (w : Fin 256) :
    shapeCast ⟨3, ![16, 256, 256]⟩ (concatenate ⟨4, ![16, 256, 128, 2]⟩ 3
        [⟨⟨4, ![16, 256, 128, 1]⟩, shapeCast ⟨4, ![16, 256, 128, 1]⟩ e h1⟩,
         ⟨⟨4, ![16, 256, 128, 1]⟩, shapeCast ⟨4, ![16, 256, 128, 1]⟩ o h1⟩] hc) h2 (ix3 d h w)
      = if w.val % 2 = 0 then e (ix3 d h (⟨w.val / 2, by omega⟩ : Fin 128))
        else o (ix3 d h (⟨w.val / 2, by omega⟩ : Fin 128)) := by
  rw [shapeCast_apply _ h2 (ix3 d h w) (ix4 d h (⟨w.val / 2, by omega⟩ : Fin 128) (⟨w.val % 2, by omega⟩ : Fin 2)) (by
    rw [Shape.rowMajor_val_four, Shape.rowMajor_val_three]
    show ((d.val * 256 + h.val) * 128 + w.val / 2) * 2 + w.val % 2 = (d.val * 256 + h.val) * 256 + w.val
    omega)]
  by_cases hp : w.val % 2 = 0
  · rw [if_pos hp, concatenate_pair_apply_left (t := ⟨4, ![16, 256, 128, 2]⟩) (s₁ := ⟨4, ![16, 256, 128, 1]⟩)
      (s₂ := ⟨4, ![16, 256, 128, 1]⟩) (3 : Fin 4) _ _ hc
      (ix4 d h (⟨w.val / 2, by omega⟩ : Fin 128) (⟨w.val % 2, by omega⟩ : Fin 2)) rfl
      (ix4 d h (⟨w.val / 2, by omega⟩ : Fin 128) (0 : Fin 1)) (fun b => match b with
        | ⟨0, _⟩ => rfl
        | ⟨1, _⟩ => rfl
        | ⟨2, _⟩ => rfl
        | ⟨3, _⟩ => by show 0 = w.val % 2; omega)]
    exact shapeCast_apply e h1 _ _ (by
      rw [Shape.rowMajor_val_four, Shape.rowMajor_val_three]
      show (d.val * 256 + h.val) * 128 + w.val / 2 = ((d.val * 256 + h.val) * 128 + w.val / 2) * 1 + 0
      omega)
  · rw [if_neg hp, concatenate_pair_apply_right (t := ⟨4, ![16, 256, 128, 2]⟩) (s₁ := ⟨4, ![16, 256, 128, 1]⟩)
      (s₂ := ⟨4, ![16, 256, 128, 1]⟩) (3 : Fin 4) _ _ hc
      (ix4 d h (⟨w.val / 2, by omega⟩ : Fin 128) (⟨w.val % 2, by omega⟩ : Fin 2)) rfl rfl
      (ix4 d h (⟨w.val / 2, by omega⟩ : Fin 128) (0 : Fin 1)) (fun b => match b with
        | ⟨0, _⟩ => fun _ => rfl
        | ⟨1, _⟩ => fun _ => rfl
        | ⟨2, _⟩ => fun _ => rfl
        | ⟨3, _⟩ => fun hb => absurd rfl hb)
      (by show 0 + 1 = w.val % 2; omega)]
    exact shapeCast_apply o h1 _ _ (by
      rw [Shape.rowMajor_val_four, Shape.rowMajor_val_three]
      show (d.val * 256 + h.val) * 128 + w.val / 2 = ((d.val * 256 + h.val) * 128 + w.val / 2) * 1 + 0
      omega)

end Cert.Interleave
-- ==== Proof.BlockValue.lean ====
/-
  What the kernel body leaves in its output block, entry by entry.

  The body loads the eight subbands of its input block (block axis 1), runs the synthesis step along depth on the
  pairs (k, k + 4), along height on the results (0, 1) and (2, 3), along width on the last two, and stores the
  16×256×256 result.  Each step is written with vectors: the even and the odd samples are computed on the whole band,
  given a unit axis behind the step's axis, concatenated there and the new axis folded in.  Read at an entry, a step
  is `Haar.step` of the two bands at the halved coordinate, and so the stored block at `(d, h, w)` is `Haar.synth` of
  the eight loaded samples at `(d / 2, h / 2, w / 2)`.
-/
import proofs.«123683_j66924180407100_2_alg».proof.Proof.Gen.KernelIdeal.Frame
import proofs.«123683_j66924180407100_2_alg».proof.Proof.HaarSpec
import proofs.«123683_j66924180407100_2_alg».proof.Proof.InterleaveBlock
import Idealize.ShloMosaic.Lib.Pipeline.Value
import Idealize.ShloMosaic.Lib.ValueIdx

noncomputable section

namespace Cert.KernelIdeal.Body

open Cert.KernelIdeal Cert.KernelIdeal.Gen Idealize.ShloMosaic Idealize.ShloMosaic.ValueIdx Idealize.ShloMosaic.TcCoe

/-- The depth step on whole bands: eight planes become sixteen. -/
def mergeD (lo hi : FVec Ideal S8x128x128 .f32) : FVec Ideal S16x128x128 .f32 :=
  shapeCast S16x128x128 (concatenate S8x2x128x128 1
    [⟨S8x1x128x128, shapeCast S8x1x128x128 (mulf (addf lo hi) (broadcast S8x128x128 (Scalar.ofBits .f32 0x3F3504F3#32))) shapeCasts_S8x128x128_S8x1x128x128⟩,
     ⟨S8x1x128x128, shapeCast S8x1x128x128 (mulf (subf lo hi) (broadcast S8x128x128 (Scalar.ofBits .f32 0x3F3504F3#32))) shapeCasts_S8x128x128_S8x1x128x128⟩]
    concatenates_S8x1x128x128_S8x1x128x128_S8x2x128x128_d1) shapeCasts_S8x2x128x128_S16x128x128

/-- The height step on whole bands: 128 rows become 256. -/
def mergeH (lo hi : FVec Ideal S16x128x128 .f32) : FVec Ideal S16x256x128 .f32 :=
  shapeCast S16x256x128 (concatenate S16x128x2x128 2
    [⟨S16x128x1x128, shapeCast S16x128x1x128 (mulf (addf lo hi) (broadcast S16x128x128 (Scalar.ofBits .f32 0x3F3504F3#32))) shapeCasts_S16x128x128_S16x128x1x128⟩,
     ⟨S16x128x1x128, shapeCast S16x128x1x128 (mulf (subf lo hi) (broadcast S16x128x128 (Scalar.ofBits .f32 0x3F3504F3#32))) shapeCasts_S16x128x128_S16x128x1x128⟩]
    concatenates_S16x128x1x128_S16x128x1x128_S16x128x2x128_d2) shapeCasts_S16x128x2x128_S16x256x128

/-- The width step on whole bands: 128 columns become 256. -/
def mergeW (lo hi : FVec Ideal S16x256x128 .f32) : FVec Ideal S16x256x256 .f32 :=
  shapeCast S16x256x256 (concatenate S16x256x128x2 3
    [⟨S16x256x128x1, shapeCast S16x256x128x1 (mulf (addf lo hi) (broadcast S16x256x128 (Scalar.ofBits .f32 0x3F3504F3#32))) shapeCasts_S16x256x128_S16x256x128x1⟩,
     ⟨S16x256x128x1, shapeCast S16x256x128x1 (mulf (subf lo hi) (broadcast S16x256x128 (Scalar.ofBits .f32 0x3F3504F3#32))) shapeCasts_S16x256x128_S16x256x128x1⟩]
    concatenates_S16x256x128x1_S16x256x128x1_S16x256x128x2_d3) shapeCasts_S16x256x128x2_S16x256x256

/-- The depth step at an entry: plane `d` comes from planes `d / 2` of the two bands. -/
theorem mergeD_apply (lo hi : FVec Ideal S8x128x128 .f32) (d : Fin 16) (h w : Fin 128) :
    mergeD lo hi (ix3 d h w) = Haar.step d.val (lo (ix3 (⟨d.val / 2, by omega⟩ : Fin 8) h w))
      (hi (ix3 (⟨d.val / 2, by omega⟩ : Fin 8) h w)) := by
  unfold mergeD Haar.step
  rw [Interleave.axis0_apply]
  rfl

/-- The height step at an entry: row `h` comes from rows `h / 2` of the two bands. -/
theorem mergeH_apply (lo hi : FVec Ideal S16x128x128 .f32) (d : Fin 16) (h : Fin 256) (w : Fin 128) :
    mergeH lo hi (ix3 d h w) = Haar.step h.val (lo (ix3 d (⟨h.val / 2, by omega⟩ : Fin 128) w))
      (hi (ix3 d (⟨h.val / 2, by omega⟩ : Fin 128) w)) := by
  unfold mergeH Haar.step
  rw [Interleave.axis1_apply]
  rfl

/-- The width step at an entry: column `w` comes from columns `w / 2` of the two bands. -/
theorem mergeW_apply (lo hi : FVec Ideal S16x256x128 .f32) (d : Fin 16) (h : Fin 256) (w : Fin 256) :
    mergeW lo hi (ix3 d h w) = Haar.step w.val (lo (ix3 d h (⟨w.val / 2, by omega⟩ : Fin 128)))
      (hi (ix3 d h (⟨w.val / 2, by omega⟩ : Fin 128))) := by
  unfold mergeW Haar.step
  rw [Interleave.axis2_apply]
  rfl

/-- Subband `k` of the input block, loaded and stripped of its two unit axes, at `(q, r, s)` is the block's entry
    `(0, k, q, r, s)`. -/
theorem band_apply (x0 : Vec Ideal S1x8x8x128x128 .f32) (k : ℕ) (hk : k < 8)
    (inb : ∀ a, (![0, k, 0, 0, 0] : Fin 5 → ℕ) a + S1x1x8x128x128.size a ≤ S1x8x8x128x128.size a)
    (q : Fin 8) (r s : Fin 128) :
    shapeCast S8x128x128 (View.ld x0 (Rect.unit (s := S1x8x8x128x128) ![0, k, 0, 0, 0] S1x1x8x128x128.size inb))
        shapeCasts_S1x1x8x128x128_S8x128x128 (ix3 q r s)
      = x0 (ix5 (0 : Fin 1) (⟨k, hk⟩ : Fin 8) q r s) := by
  rw [shapeCast_apply _ shapeCasts_S1x1x8x128x128_S8x128x128 (ix3 q r s)
    (ix5 (0 : Fin 1) (0 : Fin 1) q r s) (by
      rw [Shape.rowMajor_val_five, Shape.rowMajor_val_three]
      show (((0 * 1 + 0) * 8 + q.val) * 128 + r.val) * 128 + s.val = (q.val * 128 + r.val) * 128 + s.val
      omega)]
  show x0 _ = x0 _
  congr 1
  funext a
  apply Fin.ext
  match a with
  | ⟨0, _⟩ => show 0 + 1 * 0 = 0; omega
  | ⟨1, _⟩ => show k + 1 * 0 = k; omega
  | ⟨2, _⟩ => show 0 + 1 * q.val = q.val; omega
  | ⟨3, _⟩ => show 0 + 1 * r.val = r.val; omega
  | ⟨4, _⟩ => show 0 + 1 * s.val = s.val; omega

/-- The two leading unit axes the store puts back do not move an entry. -/
theorem unit2_apply (v : FVec Ideal S16x256x256 .f32) (u0 u1 : Fin 1) (d : Fin 16) (h w : Fin 256) :
    shapeCast S1x1x16x256x256 v shapeCasts_S16x256x256_S1x1x16x256x256 (ix5 u0 u1 d h w) = v (ix3 d h w) :=
  shapeCast_apply v _ _ _ (by
    rw [Shape.rowMajor_val_three, Shape.rowMajor_val_five]
    show (d.val * 256 + h.val) * 256 + w.val = (((u0.val * 1 + u1.val) * 16 + d.val) * 256 + h.val) * 256 + w.val
    omega)

theorem hz : (![0, 0, 0, 0, 0] : Fin 5 → Nat) = fun _ => 0 :=
  funext fun a => by fin_cases a <;> rfl

/-- THE STORED BLOCK, entry by entry: at `(d, h, w)` it is `Haar.synth` of the eight subbands of the input block at
    `(d / 2, h / 2, w / 2)`. -/
theorem out_apply (x0 : Vec Ideal S1x8x8x128x128 .f32) (u0 u1 : Fin 1) (d : Fin 16) (h w : Fin 256) :
    out0_1 x0 (ix5 u0 u1 d h w) = Haar.synth d.val h.val w.val fun k =>
      x0 (ix5 (0 : Fin 1) k (⟨d.val / 2, by omega⟩ : Fin 8) (⟨h.val / 2, by omega⟩ : Fin 128)
        (⟨w.val / 2, by omega⟩ : Fin 128)) := by
  unfold out0_1
  rw [View.canon_unit_zero hz]
  show shapeCast S1x1x16x256x256
      (mergeW
        (mergeH (mergeD (k0_pay2 (View.ld x0 r0_0)) (k0_pay6 (View.ld x0 r0_4)))
          (mergeD (k0_pay3 (View.ld x0 r0_1)) (k0_pay7 (View.ld x0 r0_5))))
        (mergeH (mergeD (k0_pay4 (View.ld x0 r0_2)) (k0_pay8 (View.ld x0 r0_6)))
          (mergeD (k0_pay5 (View.ld x0 r0_3)) (k0_pay9 (View.ld x0 r0_7)))))
      shapeCasts_S16x256x256_S1x1x16x256x256 (ix5 u0 u1 d h w) = _
  rw [unit2_apply, mergeW_apply, mergeH_apply, mergeH_apply, mergeD_apply, mergeD_apply, mergeD_apply, mergeD_apply]
  unfold k0_pay2 k0_pay3 k0_pay4 k0_pay5 k0_pay6 k0_pay7 k0_pay8 k0_pay9
  rw [band_apply x0 0 (by omega), band_apply x0 1 (by omega), band_apply x0 2 (by omega), band_apply x0 3 (by omega),
    band_apply x0 4 (by omega), band_apply x0 5 (by omega), band_apply x0 6 (by omega), band_apply x0 7 (by omega)]
  rfl

end Cert.KernelIdeal.Body

end
-- ==== Proof.KernelValue.lean ====
/-
  The kernel's result array: every block the grid writes is a block of `Haar.G`, and the blocks fill the array.

  Grid point `(b, p)` reads the input block `[b, 0..8, 8p..8p+8, :, :]` and writes the output block
  `[b, 0, 16p..16p+16, :, :]`.  Sixteen is even, so plane `d` of the block and plane `16p + d` of the array have the same
  parity and `(16p + d) / 2 = 8p + d / 2`: what the body stores at `(d, h, w)` is `Haar.G` of the whole argument at
  `(b, 0, 16p + d, h, w)`.  The 4 · 8 output blocks tile [4, 1, 128, 256, 256], so after the run the array is `Haar.G`.
-/
import proofs.«123683_j66924180407100_2_alg».proof.Proof.Gen.KernelIdeal.Value
import proofs.«123683_j66924180407100_2_alg».proof.Proof.BlockValue
import proofs.«123683_j66924180407100_2_alg».proof.Proof.HaarSpec
import Idealize.ShloMosaic.Lib.Pipeline.Value
import Idealize.ShloMosaic.Lib.ValueIdx

set_option maxRecDepth 16384

noncomputable section

namespace Cert.KernelIdeal.Whole

open Cert.KernelIdeal Cert.KernelIdeal.Gen Idealize.ShloMosaic Idealize.ShloMosaic.ValueIdx Idealize.ShloMosaic.TcCoe
open Idealize.SL.Sem
open Idealize.ShloMosaic.Pipeline (Dat)

variable (m : (ℓ : Loc nD τ sig) → Buf (Elt Ideal) ℓ) (ρ : Dev nD → PrngReg)

/-- A stored block is a block of `Haar.G`: if the input block `x0` is the argument `z` at batch `b`, planes
    `8p … 8p + 7`, then what the body stores at `(d, h, w)` is `Haar.G z` at `(b, 0, 16p + d, h, w)`. -/
theorem block_eq (x0 : Vec Ideal S1x8x8x128x128 .f32) (z : FVec Ideal S4x8x64x128x128 .f32) (b : Fin 4) (p : Fin 8)
    (hx : ∀ (k : Fin 8) (q : Fin 8) (r s : Fin 128),
      x0 (ix5 (0 : Fin 1) k q r s) = z (ix5 b k (⟨8 * p.val + q.val, by omega⟩ : Fin 64) r s))
    (u0 u1 : Fin 1) (d : Fin 16) (h w : Fin 256) :
    out0_1 x0 (ix5 u0 u1 d h w) = Haar.G z (ix5 b u1 (⟨16 * p.val + d.val, by omega⟩ : Fin 128) h w) := by
  rw [Body.out_apply, Haar.G_apply, Haar.synth_congr (d := 16 * p.val + d.val) (d' := d.val) (by omega)]
  congr 1
  funext k
  rw [hx]
  exact congrArg (fun A : Fin 64 => z (ix5 b k A (⟨h.val / 2, by omega⟩ : Fin 128) (⟨w.val / 2, by omega⟩ : Fin 128)))
    (Fin.ext (by show 8 * p.val + d.val / 2 = (16 * p.val + d.val) / 2; omega))

/-- The printed index maps over the 32 grid points: the input window follows the output window on the batch and depth
    axes, every other block coordinate is 0, and the output's block coordinates stay in range. -/
theorem idx_facts : ∀ t : Fin cfg0.N,
    win0_0.index t (0 : Fin 5) = win0_1.index t (0 : Fin 5) ∧ win0_0.index t (1 : Fin 5) = 0
    ∧ win0_0.index t (2 : Fin 5) = win0_1.index t (2 : Fin 5) ∧ win0_0.index t (3 : Fin 5) = 0
    ∧ win0_0.index t (4 : Fin 5) = 0
    ∧ win0_1.index t (1 : Fin 5) = 0 ∧ win0_1.index t (3 : Fin 5) = 0 ∧ win0_1.index t (4 : Fin 5) = 0
    ∧ win0_1.index t (0 : Fin 5) < 4 ∧ win0_1.index t (2 : Fin 5) < 8 :=
  (by decide +kernel : ∀ t : Fin grid0.N, _)

/-- Every output block position `(b, p)` is some grid point's. -/
theorem idx_onto : ∀ (q0 : Fin 4) (q2 : Fin 8), ∃ t : Fin cfg0.N, win0_1.index t = ![q0.val, 0, q2.val, 0, 0] :=
  (by decide +kernel : ∀ (q0 : Fin 4) (q2 : Fin 8), ∃ t : Fin grid0.N, win0_1.index t = ![q0.val, 0, q2.val, 0, 0])

/-- WHAT POINT `t` WRITES BACK is block `t` of `Haar.G` of the argument array. -/
theorem flushed_eq (c : Dev nD) (t : Fin cfg0.N) :
    (dats m 0 c).flushed 1 t = ((cfg0.win 1).blk t).view.read (Elt Ideal) (Haar.G (V m c main_arg0)) := by
  rw [Value.flushed1]
  obtain ⟨e0, e1, e2, e3, e4, f1, f3, f4, lb, lp⟩ := idx_facts t
  funext j
  obtain ⟨u0, u1, d, h, w, rfl⟩ : ∃ (u0 u1 : Fin 1) (d : Fin 16) (h w : Fin 256), j = ix5 u0 u1 d h w :=
    ⟨j 0, j 1, j 2, j 3, j 4, eq_ix5 j⟩
  show out0_1 (iblk m c 0 t) (ix5 u0 u1 d h w)
    = Haar.G (V m c main_arg0) (((cfg0.win 1).blk t).view.emb (ix5 u0 u1 d h w))
  refine (block_eq (iblk m c 0 t) (V m c main_arg0) ⟨win0_1.index t (0 : Fin 5), lb⟩ ⟨win0_1.index t (2 : Fin 5), lp⟩
    (fun k q r s => ?_) u0 u1 d h w).trans ?_
  · show V m c main_arg0 (((cfg0.win 0).blk t).view.emb (ix5 (0 : Fin 1) k q r s)) = V m c main_arg0 _
    congr 1
    funext a
    apply Fin.ext
    match a with
    | ⟨0, _⟩ => show win0_0.index t (0 : Fin 5) * 1 + 1 * 0 = win0_1.index t (0 : Fin 5); omega
    | ⟨1, _⟩ => show win0_0.index t (1 : Fin 5) * 8 + 1 * k.val = k.val; omega
    | ⟨2, _⟩ => show win0_0.index t (2 : Fin 5) * 8 + 1 * q.val = 8 * win0_1.index t (2 : Fin 5) + q.val; omega
    | ⟨3, _⟩ => show win0_0.index t (3 : Fin 5) * 128 + 1 * r.val = r.val; omega
    | ⟨4, _⟩ => show win0_0.index t (4 : Fin 5) * 128 + 1 * s.val = s.val; omega
  · congr 1
    funext a
    apply Fin.ext
    match a with
    | ⟨0, _⟩ => show win0_1.index t (0 : Fin 5) = win0_1.index t (0 : Fin 5) * 1 + 1 * u0.val; omega
    | ⟨1, _⟩ => show u1.val = win0_1.index t (1 : Fin 5) * 1 + 1 * u1.val; omega
    | ⟨2, _⟩ => show 16 * win0_1.index t (2 : Fin 5) + d.val = win0_1.index t (2 : Fin 5) * 16 + 1 * d.val; omega
    | ⟨3, _⟩ => show h.val = win0_1.index t (3 : Fin 5) * 256 + 1 * h.val; omega
    | ⟨4, _⟩ => show w.val = win0_1.index t (4 : Fin 5) * 256 + 1 * w.val; omega

/-- An index of the array is in point `t`'s block iff each coordinate is in the block's range on its axis. -/
theorem mem_blk (t : Fin cfg0.N) (i : S4x1x128x256x256.Idx) :
    i ∈ ((cfg0.win 1).blk t).view.set ↔ ∀ a : Fin 5, win0_1.index t a * S1x1x16x256x256.size a ≤ (i a).val
      ∧ (i a).val < win0_1.index t a * S1x1x16x256x256.size a + S1x1x16x256x256.size a := by
  show i ∈ ((View.whole main_v0).slice (win0_1.rect t)).set ↔ _
  rw [View.set_slice_whole, Rect.mem_set_unit]
  exact Iff.rfl

/-- The output blocks fill the array: index `(b, 0, d, h, w)` is in the block of the point at `(b, d / 16)`. -/
theorem cover (i : S4x1x128x256x256.Idx) :
    ∃ t : Fin cfg0.N, (cfg0.win 1).flush t = true ∧ i ∈ ((cfg0.win 1).blk t).view.set := by
  have h0 : (i 0).val < 4 := (i 0).isLt
  have h1 : (i 1).val < 1 := (i 1).isLt
  have h2 : (i 2).val < 128 := (i 2).isLt
  have h3 : (i 3).val < 256 := (i 3).isLt
  have h4 : (i 4).val < 256 := (i 4).isLt
  obtain ⟨t, ht⟩ := idx_onto ⟨(i 0).val, h0⟩ ⟨(i 2).val / 16, by omega⟩
  have q0 : win0_1.index t (0 : Fin 5) = (i 0).val := congrFun ht 0
  have q1 : win0_1.index t (1 : Fin 5) = 0 := congrFun ht 1
  have q2 : win0_1.index t (2 : Fin 5) = (i 2).val / 16 := congrFun ht 2
  have q3 : win0_1.index t (3 : Fin 5) = 0 := congrFun ht 3
  have q4 : win0_1.index t (4 : Fin 5) = 0 := congrFun ht 4
  refine ⟨t, flush0_1 t, ?_⟩
  rw [mem_blk]
  intro a
  match a with
  | ⟨0, _⟩ => show win0_1.index t (0 : Fin 5) * 1 ≤ (i 0).val ∧ (i 0).val < win0_1.index t (0 : Fin 5) * 1 + 1; omega
  | ⟨1, _⟩ => show win0_1.index t (1 : Fin 5) * 1 ≤ (i 1).val ∧ (i 1).val < win0_1.index t (1 : Fin 5) * 1 + 1; omega
  | ⟨2, _⟩ => show win0_1.index t (2 : Fin 5) * 16 ≤ (i 2).val ∧ (i 2).val < win0_1.index t (2 : Fin 5) * 16 + 16; omega
  | ⟨3, _⟩ => show win0_1.index t (3 : Fin 5) * 256 ≤ (i 3).val ∧ (i 3).val < win0_1.index t (3 : Fin 5) * 256 + 256; omega
  | ⟨4, _⟩ => show win0_1.index t (4 : Fin 5) * 256 ≤ (i 4).val ∧ (i 4).val < win0_1.index t (4 : Fin 5) * 256 + 256; omega

/-- THE ARRAY after the run is `Haar.G` of the argument array. -/
theorem final (c : Dev nD) : (dats m 0 c).arrAt 1 cfg0.N = Haar.G (V m c main_arg0) :=
  (dats m 0 c).arrAt_eq_of_cover 1 (Haar.G (V m c main_arg0)) (fun t _ => flushed_eq m c t) cover

/-- The kernel's run, read: the result array ends at `Haar.G` of the argument, the argument unchanged. -/
theorem run : θ_run defs (onTc (τ := τ) (main (F := Ideal))) ⟨m, fun _ => 0, ρ⟩ fun r => ∀ c : Dev nD,
      r.2.mem ((c : Thread nD τ).loc main_v0) = Haar.G (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.Whole

end
-- ==== Proof.LibStageRead.lean ====
/-
  Reading ONE operation's result inside a long line of host operations.
  `StableHlo.after ops V` folds the operations over the buffers' contents `V`. When the line is in single-assignment form —
  the references it writes are listed, in order, by `dsts`, and no later operation writes them again — the contents of the
  buffer `y` that the operation at position `i` writes, after the WHOLE line, are that operation's function of the contents,
  after the whole line, of the buffers it reads: nothing after position `i` writes `y`, and nothing from position `i` on writes
  a buffer it reads. One lemma per shape of operation (no operand, one, two, three, a reshape, four operands packed),
  each closed at a literal line by `rfl` (the operation at position `i`) and `decide` (the two non-memberships).
-/
import Idealize.ShloMosaic.Lib.StableHlo.Run

namespace Idealize.ShloMosaic.StableHlo

variable {τ : Topo} {sig : RefSig} {Val : EltTy → Type}

/-- The line `ops` writes, operation by operation, at most the references `dsts` lists, in order. -/
def WritesAre (ops : List (HloOp τ sig Val)) (dsts : List (Ref sig .tc)) : Prop :=
  List.Forall₂ (fun op d => op.writes ⊆ ({Proc.devRef (τ := τ) .tc d} : Finset (DevRef τ sig))) ops dsts

theorem WritesAre.forall_sub {ops : List (HloOp τ sig Val)} {dsts : List (Ref sig .tc)} (h : WritesAre ops dsts) :
    ops.Forall fun op => op.writes ⊆ (dsts.map (Proc.devRef (τ := τ) .tc)).toFinset := by
  induction h with
  | nil => exact trivial
  | @cons op d ops dsts hd _ ih =>
    rw [List.forall_cons]
    refine ⟨fun b hb => ?_, ?_⟩
    · rw [Finset.mem_singleton.mp (hd hb)]; simp
    · exact List.forall_iff_forall_mem.mpr fun o ho b hb => by
        have := (List.forall_iff_forall_mem.mp ih) o ho hb
        simp only [List.map_cons, List.toFinset_cons, Finset.mem_insert]; exact Or.inr this

theorem WritesAre.drop {ops : List (HloOp τ sig Val)} {dsts : List (Ref sig .tc)} (h : WritesAre ops dsts) (n : ℕ) :
    WritesAre (ops.drop n) (dsts.drop n) := List.forall₂_drop n h

/-- The line run whole is its first `n` operations, then the rest. -/
theorem after_take_drop (ops : List (HloOp τ sig Val)) (n : ℕ) (V : Valuation τ sig Val) :
    after ops V = after (ops.drop n) (after (ops.take n) V) := by
  conv_lhs => rw [← List.take_append_drop n ops]
  induction ops.take n generalizing V with
  | nil => rfl
  | cons op l ih => exact ih (op.result V)

/-- A reference nothing from position `n` on writes holds, after the whole line, what the first `n` operations leave. -/
theorem after_keep_from {ops : List (HloOp τ sig Val)} {dsts : List (Ref sig .tc)} (h : WritesAre ops dsts) (n : ℕ)
    {r : Ref sig .tc} (hr : r ∉ dsts.drop n) (V : Valuation τ sig Val) :
    after ops V (Proc.devRef .tc r) = after (ops.take n) V (Proc.devRef .tc r) := by
  rw [after_take_drop ops n V]
  exact after_of_writes_sub _ _ (h.drop n).forall_sub hr

/-- What the operation at position `i` writes holds, after the whole line, what that operation left there. -/
theorem after_read_at {ops : List (HloOp τ sig Val)} {dsts : List (Ref sig .tc)} (h : WritesAre ops dsts) (i : ℕ)
    {op : HloOp τ sig Val} (hop : ops[i]? = some op) {y : Ref sig .tc} (hy : y ∉ dsts.drop (i + 1)) (V : Valuation τ sig Val) :
    after ops V (Proc.devRef .tc y) = op.result (after (ops.take i) V) (Proc.devRef .tc y) := by
  rw [after_keep_from h (i + 1) hy V, List.take_succ, hop]
  show after (ops.take i ++ [op]) V _ = _
  induction ops.take i generalizing V with
  | nil => rfl
  | cons o l ih => exact ih (o.result V)

section Shapes

variable {ops : List (HloOp τ sig Val)} {dsts : List (Ref sig .tc)} (h : WritesAre ops dsts) (i : ℕ) (V : Valuation τ sig Val)
include h

theorem read_nullary {y : Ref sig .tc} {v : y.ty.Contents Val} {hy}
    (hop : ops[i]? = some (nullary (τ := τ) y v hy)) (hy' : y ∉ dsts.drop (i + 1)) :
    after ops V (Proc.devRef .tc y) = v := by
  rw [after_read_at h i hop hy' V, nullary_result]

theorem read_unary {x y : Ref sig .tc} {f : x.ty.Contents Val → y.ty.Contents Val} {hx hy}
    (hop : ops[i]? = some (unary (τ := τ) x y f hx hy)) (hy' : y ∉ dsts.drop (i + 1)) (hx' : x ∉ dsts.drop i) :
    after ops V (Proc.devRef .tc y) = f (after ops V (Proc.devRef .tc x)) := by
  rw [after_read_at h i hop hy' V, unary_result, after_keep_from h i hx' V]

theorem read_binary {a b y : Ref sig .tc} {f : a.ty.Contents Val → b.ty.Contents Val → y.ty.Contents Val} {ha hb hy}
    (hop : ops[i]? = some (binary (τ := τ) a b y f ha hb hy)) (hy' : y ∉ dsts.drop (i + 1))
    (ha' : a ∉ dsts.drop i) (hb' : b ∉ dsts.drop i) :
    after ops V (Proc.devRef .tc y) = f (after ops V (Proc.devRef .tc a)) (after ops V (Proc.devRef .tc b)) := by
  rw [after_read_at h i hop hy' V, binary_result, after_keep_from h i ha' V, after_keep_from h i hb' V]

theorem read_ternary {c a b y : Ref sig .tc} {f : c.ty.Contents Val → a.ty.Contents Val → b.ty.Contents Val → y.ty.Contents Val} {hc ha hb hy}
    (hop : ops[i]? = some (ternary (τ := τ) c a b y f hc ha hb hy)) (hy' : y ∉ dsts.drop (i + 1))
    (hc' : c ∉ dsts.drop i) (ha' : a ∉ dsts.drop i) (hb' : b ∉ dsts.drop i) :
    after ops V (Proc.devRef .tc y)
      = f (after ops V (Proc.devRef .tc c)) (after ops V (Proc.devRef .tc a)) (after ops V (Proc.devRef .tc b)) := by
  rw [after_read_at h i hop hy' V, ternary_result, after_keep_from h i hc' V, after_keep_from h i ha' V, after_keep_from h i hb' V]

theorem read_reshape {x y : Ref sig .tc} {he : x.ty.elt = y.ty.elt} {hn : x.ty.shape.ShapeCasts y.ty.shape} {hx hy}
    (hop : ops[i]? = some (reshape (τ := τ) (Val := Val) x y he hn hx hy)) (hy' : y ∉ dsts.drop (i + 1)) (hx' : x ∉ dsts.drop i) :
    after ops V (Proc.devRef .tc y) = fun j => he ▸ shapeCast y.ty.shape (after ops V (Proc.devRef .tc x)) hn j := by
  rw [after_read_at h i hop hy' V, reshape_result, after_keep_from h i hx' V]

theorem read_nary4 {x a b c y : Ref sig .tc}
    {f : ((k : Fin 4) → ((![x, a, b, c] : Fin 4 → Ref sig .tc) k).ty.Contents Val) → y.ty.Contents Val} {hxs hy}
    (hop : ops[i]? = some (nary (τ := τ) ![x, a, b, c] y f hxs hy)) (hy' : y ∉ dsts.drop (i + 1))
    (hx' : x ∉ dsts.drop i) (ha' : a ∉ dsts.drop i) (hb' : b ∉ dsts.drop i) (hc' : c ∉ dsts.drop i) :
    after ops V (Proc.devRef .tc y)
      = f (Fin.cons (after ops V (Proc.devRef .tc x)) (Fin.cons (after ops V (Proc.devRef .tc a))
          (Fin.cons (after ops V (Proc.devRef .tc b)) (Fin.cons (after ops V (Proc.devRef .tc c)) (fun j => j.elim0))))) := by
  rw [after_read_at h i hop hy' V, nary4_result, after_keep_from h i hx' V, after_keep_from h i ha' V,
    after_keep_from h i hb' V, after_keep_from h i hc' V]

end Shapes

end Idealize.ShloMosaic.StableHlo
-- ==== Proof.InterleaveHost.lean ====
/-
  Interleaving two arrays along an axis, read at an index: the host's spelling.

  As for a block, an "even" array `e` and an "odd" array `o` are laid side by side on a new axis of extent 2 right
  behind axis `k` and that axis is folded into axis `k`, so that coordinate `x` of the doubled axis comes from `e` at
  `x / 2` when `x` is even and from `o` at `x / 2` when `x` is odd.  The arrays here are the whole rank-5 arrays
  [4, 1, ·, ·, ·]; the new axis is added by a `broadcast_in_dim` that skips it, and the fold is a reshape from rank 6.
-/
import Idealize.ShloMosaic.Lib.Pipeline.Value
import Idealize.ShloMosaic.Lib.ValueIdx
import Idealize.ShloMosaic.Lib.ValueIdxRank6

namespace Cert.Interleave

open Idealize.ShloMosaic Idealize.ShloMosaic.ValueIdx

variable {α : Type}

/-- Axis 2 of a 4×1×64×128×128 array doubled to 128: plane `d` is plane `d / 2` of `e` (`d` even) or of `o` (`d` odd). -/
theorem host_axis2_apply (e o : (⟨5, ![4, 1, 64, 128, 128]⟩ : Shape).Idx → α)
    (hb : (⟨5, ![4, 1, 64, 128, 128]⟩ : Shape).BroadcastsInDim ⟨6, ![4, 1, 64, 1, 128, 128]⟩ ![0, 1, 2, 4, 5])
    (hc : Shape.Concatenates [⟨6, ![4, 1, 64, 1, 128, 128]⟩, ⟨6, ![4, 1, 64, 1, 128, 128]⟩] ⟨6, ![4, 1, 64, 2, 128, 128]⟩ 3)
    (h2 : (⟨6, ![4, 1, 64, 2, 128, 128]⟩ : Shape).ShapeCasts ⟨5, ![4, 1, 128, 128, 128]⟩)
    (b : Fin 4) (u : Fin 1) (d : Fin 128) (h : Fin 128) (w : Fin 128) :
    shapeCast ⟨5, ![4, 1, 128, 128, 128]⟩ (concatenate ⟨6, ![4, 1, 64, 2, 128, 128]⟩ 3
        [⟨⟨6, ![4, 1, 64, 1, 128, 128]⟩, broadcastInDim ⟨6, ![4, 1, 64, 1, 128, 128]⟩ ![0, 1, 2, 4, 5] hb e⟩,
         ⟨⟨6, ![4, 1, 64, 1, 128, 128]⟩, broadcastInDim ⟨6, ![4, 1, 64, 1, 128, 128]⟩ ![0, 1, 2, 4, 5] hb o⟩] hc) h2 (ix5 b u d h w)
      = if d.val % 2 = 0 then e (ix5 b u (⟨d.val / 2, by omega⟩ : Fin 64) h w)
        else o (ix5 b u (⟨d.val / 2, by omega⟩ : Fin 64) h w) := by
  rw [shapeCast_apply _ h2 (ix5 b u d h w) (ix6 b u (⟨d.val / 2, by omega⟩ : Fin 64) (⟨d.val % 2, by omega⟩ : Fin 2) h w) (by
    rw [Shape.rowMajor_val_six, Shape.rowMajor_val_five]
    show ((((b.val * 1 + u.val) * 64 + d.val / 2) * 2 + d.val % 2) * 128 + h.val) * 128 + w.val = (((b.val * 1 + u.val) * 128 + d.val) * 128 + h.val) * 128 + w.val
    omega)]
  by_cases hp : d.val % 2 = 0
  · rw [if_pos hp, concatenate_pair_apply_left (t := ⟨6, ![4, 1, 64, 2, 128, 128]⟩) (s₁ := ⟨6, ![4, 1, 64, 1, 128, 128]⟩)
      (s₂ := ⟨6, ![4, 1, 64, 1, 128, 128]⟩) (3 : Fin 6) _ _ hc
      (ix6 b u (⟨d.val / 2, by omega⟩ : Fin 64) (⟨d.val % 2, by omega⟩ : Fin 2) h w) rfl
      (ix6 b u (⟨d.val / 2, by omega⟩ : Fin 64) (0 : Fin 1) h w) (fun b => match b with
        | ⟨0, _⟩ => rfl
        | ⟨1, _⟩ => rfl
        | ⟨2, _⟩ => rfl
        | ⟨3, _⟩ => by show 0 = d.val % 2; omega
        | ⟨4, _⟩ => rfl
        | ⟨5, _⟩ => rfl)]
    exact broadcastInDim_apply (s := ⟨5, ![4, 1, 64, 128, 128]⟩) (t := ⟨6, ![4, 1, 64, 1, 128, 128]⟩) ![0, 1, 2, 4, 5] hb e
      (ix6 b u (⟨d.val / 2, by omega⟩ : Fin 64) (0 : Fin 1) h w) (ix5 b u (⟨d.val / 2, by omega⟩ : Fin 64) h w) (fun a => match a with
      | ⟨0, _⟩ => by show b.val = if (4 : Nat) = 1 then 0 else b.val; rw [if_neg (by decide)]
      | ⟨1, _⟩ => by show u.val = if (1 : Nat) = 1 then 0 else u.val; rw [if_pos rfl]; omega
      | ⟨2, _⟩ => by show d.val / 2 = if (64 : Nat) = 1 then 0 else d.val / 2; rw [if_neg (by decide)]
      | ⟨3, _⟩ => by show h.val = if (128 : Nat) = 1 then 0 else h.val; rw [if_neg (by decide)]
      | ⟨4, _⟩ => by show w.val = if (128 : Nat) = 1 then 0 else w.val; rw [if_neg (by decide)])
  · rw [if_neg hp, concatenate_pair_apply_right (t := ⟨6, ![4, 1, 64, 2, 128, 128]⟩) (s₁ := ⟨6, ![4, 1, 64, 1, 128, 128]⟩)
      (s₂ := ⟨6, ![4, 1, 64, 1, 128, 128]⟩) (3 : Fin 6) _ _ hc
      (ix6 b u (⟨d.val / 2, by omega⟩ : Fin 64) (⟨d.val % 2, by omega⟩ : Fin 2) h w) rfl rfl
      (ix6 b u (⟨d.val / 2, by omega⟩ : Fin 64) (0 : Fin 1) h w) (fun b => match b with
        | ⟨0, _⟩ => fun _ => rfl
        | ⟨1, _⟩ => fun _ => rfl
        | ⟨2, _⟩ => fun _ => rfl
        | ⟨3, _⟩ => fun hb => absurd rfl hb
        | ⟨4, _⟩ => fun _ => rfl
        | ⟨5, _⟩ => fun _ => rfl)
      (by show 0 + 1 = d.val % 2; omega)]
    exact broadcastInDim_apply (s := ⟨5, ![4, 1, 64, 128, 128]⟩) (t := ⟨6, ![4, 1, 64, 1, 128, 128]⟩) ![0, 1, 2, 4, 5] hb o
      (ix6 b u (⟨d.val / 2, by omega⟩ : Fin 64) (0 : Fin 1) h w) (ix5 b u (⟨d.val / 2, by omega⟩ : Fin 64) h w) (fun a => match a with
      | ⟨0, _⟩ => by show b.val = if (4 : Nat) = 1 then 0 else b.val; rw [if_neg (by decide)]
      | ⟨1, _⟩ => by show u.val = if (1 : Nat) = 1 then 0 else u.val; rw [if_pos rfl]; omega
      | ⟨2, _⟩ => by show d.val / 2 = if (64 : Nat) = 1 then 0 else d.val / 2; rw [if_neg (by decide)]
      | ⟨3, _⟩ => by show h.val = if (128 : Nat) = 1 then 0 else h.val; rw [if_neg (by decide)]
      | ⟨4, _⟩ => by show w.val = if (128 : Nat) = 1 then 0 else w.val; rw [if_neg (by decide)])

/-- Axis 3 of a 4×1×128×128×128 array doubled to 256: row `h` is row `h / 2` of `e` (`h` even) or of `o` (`h` odd). -/
theorem host_axis3_apply (e o : (⟨5, ![4, 1, 128, 128, 128]⟩ : Shape).Idx → α)
    (hb : (⟨5, ![4, 1, 128, 128, 128]⟩ : Shape).BroadcastsInDim ⟨6, ![4, 1, 128, 128, 1, 128]⟩ ![0, 1, 2, 3, 5])
    (hc : Shape.Concatenates [⟨6, ![4, 1, 128, 128, 1, 128]⟩, ⟨6, ![4, 1, 128, 128, 1, 128]⟩] ⟨6, ![4, 1, 128, 128, 2, 128]⟩ 4)
    (h2 : (⟨6, ![4, 1, 128, 128, 2, 128]⟩ : Shape).ShapeCasts ⟨5, ![4, 1, 128, 256, 128]⟩)
    (b : Fin 4) (u : Fin 1) (d : Fin 128) (h : Fin 256) (w : Fin 128) :
    shapeCast ⟨5, ![4, 1, 128, 256, 128]⟩ (concatenate ⟨6, ![4, 1, 128, 128, 2, 128]⟩ 4
        [⟨⟨6, ![4, 1, 128, 128, 1, 128]⟩, broadcastInDim ⟨6, ![4, 1, 128, 128, 1, 128]⟩ ![0, 1, 2, 3, 5] hb e⟩,
         ⟨⟨6, ![4, 1, 128, 128, 1, 128]⟩, broadcastInDim ⟨6, ![4, 1, 128, 128, 1, 128]⟩ ![0, 1, 2, 3, 5] hb o⟩] hc) h2 (ix5 b u d h w)
      = if h.val % 2 = 0 then e (ix5 b u d (⟨h.val / 2, by omega⟩ : Fin 128) w)
        else o (ix5 b u d (⟨h.val / 2, by omega⟩ : Fin 128) w) := by
  rw [shapeCast_apply _ h2 (ix5 b u d h w) (ix6 b u d (⟨h.val / 2, by omega⟩ : Fin 128) (⟨h.val % 2, by omega⟩ : Fin 2) w) (by
    rw [Shape.rowMajor_val_six, Shape.rowMajor_val_five]
    show ((((b.val * 1 + u.val) * 128 + d.val) * 128 + h.val / 2) * 2 + h.val % 2) * 128 + w.val = (((b.val * 1 + u.val) * 128 + d.val) * 256 + h.val) * 128 + w.val
    omega)]
  by_cases hp : h.val % 2 = 0
  · rw [if_pos hp, concatenate_pair_apply_left (t := ⟨6, ![4, 1, 128, 128, 2, 128]⟩) (s₁ := ⟨6, ![4, 1, 128, 128, 1, 128]⟩)
      (s₂ := ⟨6, ![4, 1, 128, 128, 1, 128]⟩) (4 : Fin 6) _ _ hc
      (ix6 b u d (⟨h.val / 2, by omega⟩ : Fin 128) (⟨h.val % 2, by omega⟩ : Fin 2) w) rfl
      (ix6 b u d (⟨h.val / 2, by omega⟩ : Fin 128) (0 : Fin 1) w) (fun b => match b with
        | ⟨0, _⟩ => rfl
        | ⟨1, _⟩ => rfl
        | ⟨2, _⟩ => rfl
        | ⟨3, _⟩ => rfl
        | ⟨4, _⟩ => by show 0 = h.val % 2; omega
        | ⟨5, _⟩ => rfl)]
    exact broadcastInDim_apply (s := ⟨5, ![4, 1, 128, 128, 128]⟩) (t := ⟨6, ![4, 1, 128, 128, 1, 128]⟩) ![0, 1, 2, 3, 5] hb e
      (ix6 b u d (⟨h.val / 2, by omega⟩ : Fin 128) (0 : Fin 1) w) (ix5 b u d (⟨h.val / 2, by omega⟩ : Fin 128) w) (fun a => match a with
      | ⟨0, _⟩ => by show b.val = if (4 : Nat) = 1 then 0 else b.val; rw [if_neg (by decide)]
      | ⟨1, _⟩ => by show u.val = if (1 : Nat) = 1 then 0 else u.val; rw [if_pos rfl]; omega
      | ⟨2, _⟩ => by show d.val = if (128 : Nat) = 1 then 0 else d.val; rw [if_neg (by decide)]
      | ⟨3, _⟩ => by show h.val / 2 = if (128 : Nat) = 1 then 0 else h.val / 2; rw [if_neg (by decide)]
      | ⟨4, _⟩ => by show w.val = if (128 : Nat) = 1 then 0 else w.val; rw [if_neg (by decide)])
  · rw [if_neg hp, concatenate_pair_apply_right (t := ⟨6, ![4, 1, 128, 128, 2, 128]⟩) (s₁ := ⟨6, ![4, 1, 128, 128, 1, 128]⟩)
      (s₂ := ⟨6, ![4, 1, 128, 128, 1, 128]⟩) (4 : Fin 6) _ _ hc
      (ix6 b u d (⟨h.val / 2, by omega⟩ : Fin 128) (⟨h.val % 2, by omega⟩ : Fin 2) w) rfl rfl
      (ix6 b u d (⟨h.val / 2, by omega⟩ : Fin 128) (0 : Fin 1) w) (fun b => match b with
        | ⟨0, _⟩ => fun _ => rfl
        | ⟨1, _⟩ => fun _ => rfl
        | ⟨2, _⟩ => fun _ => rfl
        | ⟨3, _⟩ => fun _ => rfl
        | ⟨4, _⟩ => fun hb => absurd rfl hb
        | ⟨5, _⟩ => fun _ => rfl)
      (by show 0 + 1 = h.val % 2; omega)]
    exact broadcastInDim_apply (s := ⟨5, ![4, 1, 128, 128, 128]⟩) (t := ⟨6, ![4, 1, 128, 128, 1, 128]⟩) ![0, 1, 2, 3, 5] hb o
      (ix6 b u d (⟨h.val / 2, by omega⟩ : Fin 128) (0 : Fin 1) w) (ix5 b u d (⟨h.val / 2, by omega⟩ : Fin 128) w) (fun a => match a with
      | ⟨0, _⟩ => by show b.val = if (4 : Nat) = 1 then 0 else b.val; rw [if_neg (by decide)]
      | ⟨1, _⟩ => by show u.val = if (1 : Nat) = 1 then 0 else u.val; rw [if_pos rfl]; omega
      | ⟨2, _⟩ => by show d.val = if (128 : Nat) = 1 then 0 else d.val; rw [if_neg (by decide)]
      | ⟨3, _⟩ => by show h.val / 2 = if (128 : Nat) = 1 then 0 else h.val / 2; rw [if_neg (by decide)]
      | ⟨4, _⟩ => by show w.val = if (128 : Nat) = 1 then 0 else w.val; rw [if_neg (by decide)])

/-- Axis 4 of a 4×1×128×256×128 array doubled to 256: column `w` is column `w / 2` of `e` (`w` even) or of `o` (`w` odd). -/
theorem host_axis4_apply (e o : (⟨5, ![4, 1, 128, 256, 128]⟩ : Shape).Idx → α)
    (hb : (⟨5, ![4, 1, 128, 256, 128]⟩ : Shape).BroadcastsInDim ⟨6, ![4, 1, 128, 256, 128, 1]⟩ ![0, 1, 2, 3, 4])
    (hc : Shape.Concatenates [⟨6, ![4, 1, 128, 256, 128, 1]⟩, ⟨6, ![4, 1, 128, 256, 128, 1]⟩] ⟨6, ![4, 1, 128, 256, 128, 2]⟩ 5)
    (h2 : (⟨6, ![4, 1, 128, 256, 128, 2]⟩ : Shape).ShapeCasts ⟨5, ![4, 1, 128, 256, 256]⟩)
    (b : Fin 4) (u : Fin 1) (d : Fin 128) (h : Fin 256) (w : Fin 256) :
    shapeCast ⟨5, ![4, 1, 128, 256, 256]⟩ (concatenate ⟨6, ![4, 1, 128, 256, 128, 2]⟩ 5
        [⟨⟨6, ![4, 1, 128, 256, 128, 1]⟩, broadcastInDim ⟨6, ![4, 1, 128, 256, 128, 1]⟩ ![0, 1, 2, 3, 4] hb e⟩,
         ⟨⟨6, ![4, 1, 128, 256, 128, 1]⟩, broadcastInDim ⟨6, ![4, 1, 128, 256, 128, 1]⟩ ![0, 1, 2, 3, 4] hb o⟩] hc) h2 (ix5 b u d h w)
      = if w.val % 2 = 0 then e (ix5 b u d h (⟨w.val / 2, by omega⟩ : Fin 128))
        else o (ix5 b u d h (⟨w.val / 2, by omega⟩ : Fin 128)) := by
  rw [shapeCast_apply _ h2 (ix5 b u d h w) (ix6 b u d h (⟨w.val / 2, by omega⟩ : Fin 128) (⟨w.val % 2, by omega⟩ : Fin 2)) (by
    rw [Shape.rowMajor_val_six, Shape.rowMajor_val_five]
    show ((((b.val * 1 + u.val) * 128 + d.val) * 256 + h.val) * 128 + w.val / 2) * 2 + w.val % 2 = (((b.val * 1 + u.val) * 128 + d.val) * 256 + h.val) * 256 + w.val
    omega)]
  by_cases hp : w.val % 2 = 0
  · rw [if_pos hp, concatenate_pair_apply_left (t := ⟨6, ![4, 1, 128, 256, 128, 2]⟩) (s₁ := ⟨6, ![4, 1, 128, 256, 128, 1]⟩)
      (s₂ := ⟨6, ![4, 1, 128, 256, 128, 1]⟩) (5 : Fin 6) _ _ hc
      (ix6 b u d h (⟨w.val / 2, by omega⟩ : Fin 128) (⟨w.val % 2, by omega⟩ : Fin 2)) rfl
      (ix6 b u d h (⟨w.val / 2, by omega⟩ : Fin 128) (0 : Fin 1)) (fun b => match b with
        | ⟨0, _⟩ => rfl
        | ⟨1, _⟩ => rfl
        | ⟨2, _⟩ => rfl
        | ⟨3, _⟩ => rfl
        | ⟨4, _⟩ => rfl
        | ⟨5, _⟩ => by show 0 = w.val % 2; omega)]
    exact broadcastInDim_apply (s := ⟨5, ![4, 1, 128, 256, 128]⟩) (t := ⟨6, ![4, 1, 128, 256, 128, 1]⟩) ![0, 1, 2, 3, 4] hb e
      (ix6 b u d h (⟨w.val / 2, by omega⟩ : Fin 128) (0 : Fin 1)) (ix5 b u d h (⟨w.val / 2, by omega⟩ : Fin 128)) (fun a => match a with
      | ⟨0, _⟩ => by show b.val = if (4 : Nat) = 1 then 0 else b.val; rw [if_neg (by decide)]
      | ⟨1, _⟩ => by show u.val = if (1 : Nat) = 1 then 0 else u.val; rw [if_pos rfl]; omega
      | ⟨2, _⟩ => by show d.val = if (128 : Nat) = 1 then 0 else d.val; rw [if_neg (by decide)]
      | ⟨3, _⟩ => by show h.val = if (256 : Nat) = 1 then 0 else h.val; rw [if_neg (by decide)]
      | ⟨4, _⟩ => by show w.val / 2 = if (128 : Nat) = 1 then 0 else w.val / 2; rw [if_neg (by decide)])
  · rw [if_neg hp, concatenate_pair_apply_right (t := ⟨6, ![4, 1, 128, 256, 128, 2]⟩) (s₁ := ⟨6, ![4, 1, 128, 256, 128, 1]⟩)
      (s₂ := ⟨6, ![4, 1, 128, 256, 128, 1]⟩) (5 : Fin 6) _ _ hc
      (ix6 b u d h (⟨w.val / 2, by omega⟩ : Fin 128) (⟨w.val % 2, by omega⟩ : Fin 2)) rfl rfl
      (ix6 b u d h (⟨w.val / 2, by omega⟩ : Fin 128) (0 : Fin 1)) (fun b => match b with
        | ⟨0, _⟩ => fun _ => rfl
        | ⟨1, _⟩ => fun _ => rfl
        | ⟨2, _⟩ => fun _ => rfl
        | ⟨3, _⟩ => fun _ => rfl
        | ⟨4, _⟩ => fun _ => rfl
        | ⟨5, _⟩ => fun hb => absurd rfl hb)
      (by show 0 + 1 = w.val % 2; omega)]
    exact broadcastInDim_apply (s := ⟨5, ![4, 1, 128, 256, 128]⟩) (t := ⟨6, ![4, 1, 128, 256, 128, 1]⟩) ![0, 1, 2, 3, 4] hb o
      (ix6 b u d h (⟨w.val / 2, by omega⟩ : Fin 128) (0 : Fin 1)) (ix5 b u d h (⟨w.val / 2, by omega⟩ : Fin 128)) (fun a => match a with
      | ⟨0, _⟩ => by show b.val = if (4 : Nat) = 1 then 0 else b.val; rw [if_neg (by decide)]
      | ⟨1, _⟩ => by show u.val = if (1 : Nat) = 1 then 0 else u.val; rw [if_pos rfl]; omega
      | ⟨2, _⟩ => by show d.val = if (128 : Nat) = 1 then 0 else d.val; rw [if_neg (by decide)]
      | ⟨3, _⟩ => by show h.val = if (256 : Nat) = 1 then 0 else h.val; rw [if_neg (by decide)]
      | ⟨4, _⟩ => by show w.val / 2 = if (128 : Nat) = 1 then 0 else w.val / 2; rw [if_neg (by decide)])

end Cert.Interleave
-- ==== Proof.RefValue.lean ====
/-
  What the reference computes, entry by entry.

  The reference slices the eight channels of its argument, runs the synthesis step along depth on the pairs
  (k, k + 4), along height on the results (0, 1) and (2, 3), along width on the last two — each step the even and the
  odd samples on the whole array, a unit axis behind the step's axis, a concatenation there, a reshape folding the new
  axis in.  Read at an entry, a step is `Haar.step` of the two bands at the halved coordinate; so the result at
  `(b, 0, d, h, w)` is `Haar.synth` of the argument's eight channels at `(b, ·, d / 2, h / 2, w / 2)`: the array `Haar.G`.

  The program is a line of 92 operations in single-assignment form: eight slices, then seven steps of twelve
  operations each.  What a buffer holds after the whole line is its operation's function of what its operands hold
  after the whole line; so each step's result is read back through its twelve operations to the step's two bands, and
  the result buffer through the seven steps to the argument.
-/
import proofs.«123683_j66924180407100_2_alg».proof.Proof.RefRunPatched
import proofs.«123683_j66924180407100_2_alg».proof.Proof.LibStageRead
import proofs.«123683_j66924180407100_2_alg».proof.Proof.HaarSpec
import proofs.«123683_j66924180407100_2_alg».proof.Proof.InterleaveHost
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.ValueP
open Idealize.ShloMosaic Idealize.ShloMosaic.ValueIdx Idealize.ShloMosaic.TcCoe Idealize.ShloMosaic.StableHlo
open Idealize.SL.Sem

/-- The depth step on whole arrays: 64 planes become 128. -/
def mergeD (lo hi : FVec Ideal S4x1x64x128x128 .f32) : FVec Ideal S4x1x128x128x128 .f32 :=
  shapeCast S4x1x128x128x128 (concatenate S4x1x64x2x128x128 3
    [⟨S4x1x64x1x128x128, broadcastInDim S4x1x64x1x128x128 ![0, 1, 2, 4, 5] bcast_S4x1x64x128x128_S4x1x64x1x128x128_0_1_2_4_5
        (mulf (addf lo hi) (broadcastInDim S4x1x64x128x128 ![] bcast_S_S4x1x64x128x128 (constant S_ .f32 0x3F3504F3#32)))⟩,
     ⟨S4x1x64x1x128x128, broadcastInDim S4x1x64x1x128x128 ![0, 1, 2, 4, 5] bcast_S4x1x64x128x128_S4x1x64x1x128x128_0_1_2_4_5
        (mulf (subf lo hi) (broadcastInDim S4x1x64x128x128 ![] bcast_S_S4x1x64x128x128 (constant S_ .f32 0x3F3504F3#32)))⟩]
    concatenates_S4x1x64x1x128x128_S4x1x64x1x128x128_S4x1x64x2x128x128_d3) shapeCasts_S4x1x64x2x128x128_S4x1x128x128x128

/-- The height step on whole arrays: 128 rows become 256. -/
def mergeH (lo hi : FVec Ideal S4x1x128x128x128 .f32) : FVec Ideal S4x1x128x256x128 .f32 :=
  shapeCast S4x1x128x256x128 (concatenate S4x1x128x128x2x128 4
    [⟨S4x1x128x128x1x128, broadcastInDim S4x1x128x128x1x128 ![0, 1, 2, 3, 5] bcast_S4x1x128x128x128_S4x1x128x128x1x128_0_1_2_3_5
        (mulf (addf lo hi) (broadcastInDim S4x1x128x128x128 ![] bcast_S_S4x1x128x128x128 (constant S_ .f32 0x3F3504F3#32)))⟩,
     ⟨S4x1x128x128x1x128, broadcastInDim S4x1x128x128x1x128 ![0, 1, 2, 3, 5] bcast_S4x1x128x128x128_S4x1x128x128x1x128_0_1_2_3_5
        (mulf (subf lo hi) (broadcastInDim S4x1x128x128x128 ![] bcast_S_S4x1x128x128x128 (constant S_ .f32 0x3F3504F3#32)))⟩]
    concatenates_S4x1x128x128x1x128_S4x1x128x128x1x128_S4x1x128x128x2x128_d4) shapeCasts_S4x1x128x128x2x128_S4x1x128x256x128

/-- The width step on whole arrays: 128 columns become 256. -/
def mergeW (lo hi : FVec Ideal S4x1x128x256x128 .f32) : FVec Ideal S4x1x128x256x256 .f32 :=
  shapeCast S4x1x128x256x256 (concatenate S4x1x128x256x128x2 5
    [⟨S4x1x128x256x128x1, broadcastInDim S4x1x128x256x128x1 ![0, 1, 2, 3, 4] bcast_S4x1x128x256x128_S4x1x128x256x128x1_0_1_2_3_4
        (mulf (addf lo hi) (broadcastInDim S4x1x128x256x128 ![] bcast_S_S4x1x128x256x128 (constant S_ .f32 0x3F3504F3#32)))⟩,
     ⟨S4x1x128x256x128x1, broadcastInDim S4x1x128x256x128x1 ![0, 1, 2, 3, 4] bcast_S4x1x128x256x128_S4x1x128x256x128x1_0_1_2_3_4
        (mulf (subf lo hi) (broadcastInDim S4x1x128x256x128 ![] bcast_S_S4x1x128x256x128 (constant S_ .f32 0x3F3504F3#32)))⟩]
    concatenates_S4x1x128x256x128x1_S4x1x128x256x128x1_S4x1x128x256x128x2_d5) shapeCasts_S4x1x128x256x128x2_S4x1x128x256x256

/-- The depth step at an entry: plane `d` comes from planes `d / 2` of the two bands. -/
theorem mergeD_apply (lo hi : FVec Ideal S4x1x64x128x128 .f32) (b : Fin 4) (u : Fin 1) (d : Fin 128) (h w : Fin 128) :
    mergeD lo hi (ix5 b u d h w) = Haar.step d.val (lo (ix5 b u (⟨d.val / 2, by omega⟩ : Fin 64) h w))
      (hi (ix5 b u (⟨d.val / 2, by omega⟩ : Fin 64) h w)) := by
  unfold mergeD Haar.step
  rw [Interleave.host_axis2_apply]
  rfl

/-- The height step at an entry: row `h` comes from rows `h / 2` of the two bands. -/
theorem mergeH_apply (lo hi : FVec Ideal S4x1x128x128x128 .f32) (b : Fin 4) (u : Fin 1) (d : Fin 128) (h : Fin 256) (w : Fin 128) :
    mergeH lo hi (ix5 b u d h w) = Haar.step h.val (lo (ix5 b u d (⟨h.val / 2, by omega⟩ : Fin 128) w))
      (hi (ix5 b u d (⟨h.val / 2, by omega⟩ : Fin 128) w)) := by
  unfold mergeH Haar.step
  rw [Interleave.host_axis3_apply]
  rfl

/-- The width step at an entry: column `w` comes from columns `w / 2` of the two bands. -/
theorem mergeW_apply (lo hi : FVec Ideal S4x1x128x256x128 .f32) (b : Fin 4) (u : Fin 1) (d : Fin 128) (h : Fin 256) (w : Fin 256) :
    mergeW lo hi (ix5 b u d h w) = Haar.step w.val (lo (ix5 b u d h (⟨w.val / 2, by omega⟩ : Fin 128)))
      (hi (ix5 b u d h (⟨w.val / 2, by omega⟩ : Fin 128))) := by
  unfold mergeW Haar.step
  rw [Interleave.host_axis4_apply]
  rfl

/-- Channel `k` sliced out of the argument, at `(b, 0, q, r, s)`, is the argument's entry `(b, k, q, r, s)`. -/
theorem channel_apply (z : FVec Ideal S4x8x64x128x128 .f32) (k : ℕ) (hk : k < 8)
    (hs : S4x8x64x128x128.Slices ![0, k, 0, 0, 0] S4x1x64x128x128)
    (b : Fin 4) (u : Fin 1) (q : Fin 64) (r s : Fin 128) :
    extractStridedSlice S4x1x64x128x128 ![0, k, 0, 0, 0] z hs (ix5 b u q r s) = z (ix5 b (⟨k, hk⟩ : Fin 8) q r s) :=
  extractStridedSlice_apply ![0, k, 0, 0, 0] z hs (ix5 b u q r s) (ix5 b (⟨k, hk⟩ : Fin 8) q r s) (fun a => match a with
    | ⟨0, _⟩ => by show b.val = 0 + b.val; omega
    | ⟨1, _⟩ => by show k = k + u.val; omega
    | ⟨2, _⟩ => by show q.val = 0 + q.val; omega
    | ⟨3, _⟩ => by show r.val = 0 + r.val; omega
    | ⟨4, _⟩ => by show s.val = 0 + s.val; omega)

/-! ## The line of operations, read back from the result -/

/-- The buffers the 92 operations write, in program order: each is written once. -/
def dsts : List (Ref sig .tc) :=
  [main_v0, main_v1, main_v2, main_v3, main_v4, main_v5, main_v6, main_v7, main_v8, main_cst, main_v9, main_v10, main_v11, main_cst_0, main_v12, main_v13, main_v14, main_v15, main_v16, main_v17, main_v18, main_cst_1, main_v19, main_v20, main_v21, main_cst_2, main_v22, main_v23, main_v24, main_v25, main_v26, main_v27, main_v28, main_cst_3, main_v29, main_v30, main_v31, main_cst_4, main_v32, main_v33, main_v34, main_v35, main_v36, main_v37, main_v38, main_cst_5, main_v39, main_v40, main_v41, main_cst_6, main_v42, main_v43, main_v44, main_v45, main_v46, main_v47, main_v48, main_cst_7, main_v49, main_v50, main_v51, main_cst_8, main_v52, main_v53, main_v54, main_v55, main_v56, main_v57, main_v58, main_cst_9, main_v59, main_v60, main_v61, main_cst_10, main_v62, main_v63, main_v64, main_v65, main_v66, main_v67, main_v68, main_cst_11, main_v69, main_v70, main_v71, main_cst_12, main_v72, main_v73, main_v74, main_v75, main_v76, main_v77]

/-- Operation by operation, the line writes exactly these buffers. -/
theorem writes : WritesAre (τ := τ) (ops (F := Ideal)) dsts := by
  unfold WritesAre dsts
  repeat (first
    | exact List.Forall₂.nil
    | refine List.Forall₂.cons (by simp only [nullary_writes, unary_writes, binary_writes, reshape_writes, Finset.Subset.refl]) ?_)

variable (V : Valuation τ sig (Elt Ideal))

/-- Nothing writes the argument: it holds its launch contents after the whole line. -/
theorem read_main_arg0 : after (ops (F := Ideal)) V (Proc.devRef .tc main_arg0) = V (Proc.devRef .tc main_arg0) :=
  after_keep_from writes 0 (r := main_arg0) (by decide) V

theorem read_main_v0 : after (ops (F := Ideal)) V (Proc.devRef .tc main_v0)
    = extractStridedSlice S4x1x64x128x128 ![0, 0, 0, 0, 0] (after (ops (F := Ideal)) V (Proc.devRef .tc main_arg0)) slices_S4x8x64x128x128_S4x1x64x128x128_0_0_0_0_0 :=
  read_unary writes 0 V (x := main_arg0) (y := main_v0) rfl (by decide) (by decide)

theorem read_main_v1 : after (ops (F := Ideal)) V (Proc.devRef .tc main_v1)
    = extractStridedSlice S4x1x64x128x128 ![0, 1, 0, 0, 0] (after (ops (F := Ideal)) V (Proc.devRef .tc main_arg0)) slices_S4x8x64x128x128_S4x1x64x128x128_0_1_0_0_0 :=
  read_unary writes 1 V (x := main_arg0) (y := main_v1) rfl (by decide) (by decide)

theorem read_main_v2 : after (ops (F := Ideal)) V (Proc.devRef .tc main_v2)
    = extractStridedSlice S4x1x64x128x128 ![0, 2, 0, 0, 0] (after (ops (F := Ideal)) V (Proc.devRef .tc main_arg0)) slices_S4x8x64x128x128_S4x1x64x128x128_0_2_0_0_0 :=
  read_unary writes 2 V (x := main_arg0) (y := main_v2) rfl (by decide) (by decide)

theorem read_main_v3 : after (ops (F := Ideal)) V (Proc.devRef .tc main_v3)
    = extractStridedSlice S4x1x64x128x128 ![0, 3, 0, 0, 0] (after (ops (F := Ideal)) V (Proc.devRef .tc main_arg0)) slices_S4x8x64x128x128_S4x1x64x128x128_0_3_0_0_0 :=
  read_unary writes 3 V (x := main_arg0) (y := main_v3) rfl (by decide) (by decide)

theorem read_main_v4 : after (ops (F := Ideal)) V (Proc.devRef .tc main_v4)
    = extractStridedSlice S4x1x64x128x128 ![0, 4, 0, 0, 0] (after (ops (F := Ideal)) V (Proc.devRef .tc main_arg0)) slices_S4x8x64x128x128_S4x1x64x128x128_0_4_0_0_0 :=
  read_unary writes 4 V (x := main_arg0) (y := main_v4) rfl (by decide) (by decide)

theorem read_main_v5 : after (ops (F := Ideal)) V (Proc.devRef .tc main_v5)
    = extractStridedSlice S4x1x64x128x128 ![0, 5, 0, 0, 0] (after (ops (F := Ideal)) V (Proc.devRef .tc main_arg0)) slices_S4x8x64x128x128_S4x1x64x128x128_0_5_0_0_0 :=
  read_unary writes 5 V (x := main_arg0) (y := main_v5) rfl (by decide) (by decide)

theorem read_main_v6 : after (ops (F := Ideal)) V (Proc.devRef .tc main_v6)
    = extractStridedSlice S4x1x64x128x128 ![0, 6, 0, 0, 0] (after (ops (F := Ideal)) V (Proc.devRef .tc main_arg0)) slices_S4x8x64x128x128_S4x1x64x128x128_0_6_0_0_0 :=
  read_unary writes 6 V (x := main_arg0) (y := main_v6) rfl (by decide) (by decide)

theorem read_main_v7 : after (ops (F := Ideal)) V (Proc.devRef .tc main_v7)
    = extractStridedSlice S4x1x64x128x128 ![0, 7, 0, 0, 0] (after (ops (F := Ideal)) V (Proc.devRef .tc main_arg0)) slices_S4x8x64x128x128_S4x1x64x128x128_0_7_0_0_0 :=
  read_unary writes 7 V (x := main_arg0) (y := main_v7) rfl (by decide) (by decide)

/-- The step that writes `main_v17`: the twelve operations at positions 8–19 of the line, read one by one from the
    result back to the two bands `main_v0`, `main_v4`. -/
theorem read_main_v17 : after (ops (F := Ideal)) V (Proc.devRef .tc main_v17) = mergeD (after (ops (F := Ideal)) V (Proc.devRef .tc main_v0)) (after (ops (F := Ideal)) V (Proc.devRef .tc main_v4)) := by
  rw [read_reshape writes 19 V (x := main_v16) (y := main_v17) rfl (by decide) (by decide),
    read_binary writes 18 V (a := main_v14) (b := main_v15) (y := main_v16) rfl (by decide) (by decide) (by decide),
    read_unary writes 16 V (x := main_v10) (y := main_v14) rfl (by decide) (by decide),
    read_unary writes 17 V (x := main_v13) (y := main_v15) rfl (by decide) (by decide),
    read_binary writes 11 V (a := main_v8) (b := main_v9) (y := main_v10) rfl (by decide) (by decide) (by decide),
    read_binary writes 15 V (a := main_v11) (b := main_v12) (y := main_v13) rfl (by decide) (by decide) (by decide),
    read_binary writes 8 V (a := main_v0) (b := main_v4) (y := main_v8) rfl (by decide) (by decide) (by decide),
    read_binary writes 12 V (a := main_v0) (b := main_v4) (y := main_v11) rfl (by decide) (by decide) (by decide),
    read_unary writes 10 V (x := main_cst) (y := main_v9) rfl (by decide) (by decide),
    read_unary writes 14 V (x := main_cst_0) (y := main_v12) rfl (by decide) (by decide),
    read_nullary writes 9 V (y := main_cst) rfl (by decide),
    read_nullary writes 13 V (y := main_cst_0) rfl (by decide)]
  rfl

/-- The step that writes `main_v27`: the twelve operations at positions 20–31 of the line, read one by one from the
    result back to the two bands `main_v1`, `main_v5`. -/
theorem read_main_v27 : after (ops (F := Ideal)) V (Proc.devRef .tc main_v27) = mergeD (after (ops (F := Ideal)) V (Proc.devRef .tc main_v1)) (after (ops (F := Ideal)) V (Proc.devRef .tc main_v5)) := by
  rw [read_reshape writes 31 V (x := main_v26) (y := main_v27) rfl (by decide) (by decide),
    read_binary writes 30 V (a := main_v24) (b := main_v25) (y := main_v26) rfl (by decide) (by decide) (by decide),
    read_unary writes 28 V (x := main_v20) (y := main_v24) rfl (by decide) (by decide),
    read_unary writes 29 V (x := main_v23) (y := main_v25) rfl (by decide) (by decide),
    read_binary writes 23 V (a := main_v18) (b := main_v19) (y := main_v20) rfl (by decide) (by decide) (by decide),
    read_binary writes 27 V (a := main_v21) (b := main_v22) (y := main_v23) rfl (by decide) (by decide) (by decide),
    read_binary writes 20 V (a := main_v1) (b := main_v5) (y := main_v18) rfl (by decide) (by decide) (by decide),
    read_binary writes 24 V (a := main_v1) (b := main_v5) (y := main_v21) rfl (by decide) (by decide) (by decide),
    read_unary writes 22 V (x := main_cst_1) (y := main_v19) rfl (by decide) (by decide),
    read_unary writes 26 V (x := main_cst_2) (y := main_v22) rfl (by decide) (by decide),
    read_nullary writes 21 V (y := main_cst_1) rfl (by decide),
    read_nullary writes 25 V (y := main_cst_2) rfl (by decide)]
  rfl

/-- The step that writes `main_v37`: the twelve operations at positions 32–43 of the line, read one by one from the
    result back to the two bands `main_v2`, `main_v6`. -/
theorem read_main_v37 : after (ops (F := Ideal)) V (Proc.devRef .tc main_v37) = mergeD (after (ops (F := Ideal)) V (Proc.devRef .tc main_v2)) (after (ops (F := Ideal)) V (Proc.devRef .tc main_v6)) := by
  rw [read_reshape writes 43 V (x := main_v36) (y := main_v37) rfl (by decide) (by decide),
    read_binary writes 42 V (a := main_v34) (b := main_v35) (y := main_v36) rfl (by decide) (by decide) (by decide),
    read_unary writes 40 V (x := main_v30) (y := main_v34) rfl (by decide) (by decide),
    read_unary writes 41 V (x := main_v33) (y := main_v35) rfl (by decide) (by decide),
    read_binary writes 35 V (a := main_v28) (b := main_v29) (y := main_v30) rfl (by decide) (by decide) (by decide),
    read_binary writes 39 V (a := main_v31) (b := main_v32) (y := main_v33) rfl (by decide) (by decide) (by decide),
    read_binary writes 32 V (a := main_v2) (b := main_v6) (y := main_v28) rfl (by decide) (by decide) (by decide),
    read_binary writes 36 V (a := main_v2) (b := main_v6) (y := main_v31) rfl (by decide) (by decide) (by decide),
    read_unary writes 34 V (x := main_cst_3) (y := main_v29) rfl (by decide) (by decide),
    read_unary writes 38 V (x := main_cst_4) (y := main_v32) rfl (by decide) (by decide),
    read_nullary writes 33 V (y := main_cst_3) rfl (by decide),
    read_nullary writes 37 V (y := main_cst_4) rfl (by decide)]
  rfl

/-- The step that writes `main_v47`: the twelve operations at positions 44–55 of the line, read one by one from the
    result back to the two bands `main_v3`, `main_v7`. -/
theorem read_main_v47 : after (ops (F := Ideal)) V (Proc.devRef .tc main_v47) = mergeD (after (ops (F := Ideal)) V (Proc.devRef .tc main_v3)) (after (ops (F := Ideal)) V (Proc.devRef .tc main_v7)) := by
  rw [read_reshape writes 55 V (x := main_v46) (y := main_v47) rfl (by decide) (by decide),
    read_binary writes 54 V (a := main_v44) (b := main_v45) (y := main_v46) rfl (by decide) (by decide) (by decide),
    read_unary writes 52 V (x := main_v40) (y := main_v44) rfl (by decide) (by decide),
    read_unary writes 53 V (x := main_v43) (y := main_v45) rfl (by decide) (by decide),
    read_binary writes 47 V (a := main_v38) (b := main_v39) (y := main_v40) rfl (by decide) (by decide) (by decide),
    read_binary writes 51 V (a := main_v41) (b := main_v42) (y := main_v43) rfl (by decide) (by decide) (by decide),
    read_binary writes 44 V (a := main_v3) (b := main_v7) (y := main_v38) rfl (by decide) (by decide) (by decide),
    read_binary writes 48 V (a := main_v3) (b := main_v7) (y := main_v41) rfl (by decide) (by decide) (by decide),
    read_unary writes 46 V (x := main_cst_5) (y := main_v39) rfl (by decide) (by decide),
    read_unary writes 50 V (x := main_cst_6) (y := main_v42) rfl (by decide) (by decide),
    read_nullary writes 45 V (y := main_cst_5) rfl (by decide),
    read_nullary writes 49 V (y := main_cst_6) rfl (by decide)]
  rfl

/-- The step that writes `main_v57`: the twelve operations at positions 56–67 of the line, read one by one from the
    result back to the two bands `main_v17`, `main_v27`. -/
theorem read_main_v57 : after (ops (F := Ideal)) V (Proc.devRef .tc main_v57) = mergeH (after (ops (F := Ideal)) V (Proc.devRef .tc main_v17)) (after (ops (F := Ideal)) V (Proc.devRef .tc main_v27)) := by
  rw [read_reshape writes 67 V (x := main_v56) (y := main_v57) rfl (by decide) (by decide),
    read_binary writes 66 V (a := main_v54) (b := main_v55) (y := main_v56) rfl (by decide) (by decide) (by decide),
    read_unary writes 64 V (x := main_v50) (y := main_v54) rfl (by decide) (by decide),
    read_unary writes 65 V (x := main_v53) (y := main_v55) rfl (by decide) (by decide),
    read_binary writes 59 V (a := main_v48) (b := main_v49) (y := main_v50) rfl (by decide) (by decide) (by decide),
    read_binary writes 63 V (a := main_v51) (b := main_v52) (y := main_v53) rfl (by decide) (by decide) (by decide),
    read_binary writes 56 V (a := main_v17) (b := main_v27) (y := main_v48) rfl (by decide) (by decide) (by decide),
    read_binary writes 60 V (a := main_v17) (b := main_v27) (y := main_v51) rfl (by decide) (by decide) (by decide),
    read_unary writes 58 V (x := main_cst_7) (y := main_v49) rfl (by decide) (by decide),
    read_unary writes 62 V (x := main_cst_8) (y := main_v52) rfl (by decide) (by decide),
    read_nullary writes 57 V (y := main_cst_7) rfl (by decide),
    read_nullary writes 61 V (y := main_cst_8) rfl (by decide)]
  rfl

/-- The step that writes `main_v67`: the twelve operations at positions 68–79 of the line, read one by one from the
    result back to the two bands `main_v37`, `main_v47`. -/
theorem read_main_v67 : after (ops (F := Ideal)) V (Proc.devRef .tc main_v67) = mergeH (after (ops (F := Ideal)) V (Proc.devRef .tc main_v37)) (after (ops (F := Ideal)) V (Proc.devRef .tc main_v47)) := by
  rw [read_reshape writes 79 V (x := main_v66) (y := main_v67) rfl (by decide) (by decide),
    read_binary writes 78 V (a := main_v64) (b := main_v65) (y := main_v66) rfl (by decide) (by decide) (by decide),
    read_unary writes 76 V (x := main_v60) (y := main_v64) rfl (by decide) (by decide),
    read_unary writes 77 V (x := main_v63) (y := main_v65) rfl (by decide) (by decide),
    read_binary writes 71 V (a := main_v58) (b := main_v59) (y := main_v60) rfl (by decide) (by decide) (by decide),
    read_binary writes 75 V (a := main_v61) (b := main_v62) (y := main_v63) rfl (by decide) (by decide) (by decide),
    read_binary writes 68 V (a := main_v37) (b := main_v47) (y := main_v58) rfl (by decide) (by decide) (by decide),
    read_binary writes 72 V (a := main_v37) (b := main_v47) (y := main_v61) rfl (by decide) (by decide) (by decide),
    read_unary writes 70 V (x := main_cst_9) (y := main_v59) rfl (by decide) (by decide),
    read_unary writes 74 V (x := main_cst_10) (y := main_v62) rfl (by decide) (by decide),
    read_nullary writes 69 V (y := main_cst_9) rfl (by decide),
    read_nullary writes 73 V (y := main_cst_10) rfl (by decide)]
  rfl

/-- The step that writes `main_v77`: the twelve operations at positions 80–91 of the line, read one by one from the
    result back to the two bands `main_v57`, `main_v67`. -/
theorem read_main_v77 : after (ops (F := Ideal)) V (Proc.devRef .tc main_v77) = mergeW (after (ops (F := Ideal)) V (Proc.devRef .tc main_v57)) (after (ops (F := Ideal)) V (Proc.devRef .tc main_v67)) := by
  rw [read_reshape writes 91 V (x := main_v76) (y := main_v77) rfl (by decide) (by decide),
    read_binary writes 90 V (a := main_v74) (b := main_v75) (y := main_v76) rfl (by decide) (by decide) (by decide),
    read_unary writes 88 V (x := main_v70) (y := main_v74) rfl (by decide) (by decide),
    read_unary writes 89 V (x := main_v73) (y := main_v75) rfl (by decide) (by decide),
    read_binary writes 83 V (a := main_v68) (b := main_v69) (y := main_v70) rfl (by decide) (by decide) (by decide),
    read_binary writes 87 V (a := main_v71) (b := main_v72) (y := main_v73) rfl (by decide) (by decide) (by decide),
    read_binary writes 80 V (a := main_v57) (b := main_v67) (y := main_v68) rfl (by decide) (by decide) (by decide),
    read_binary writes 84 V (a := main_v57) (b := main_v67) (y := main_v71) rfl (by decide) (by decide) (by decide),
    read_unary writes 82 V (x := main_cst_11) (y := main_v69) rfl (by decide) (by decide),
    read_unary writes 86 V (x := main_cst_12) (y := main_v72) rfl (by decide) (by decide),
    read_nullary writes 81 V (y := main_cst_11) rfl (by decide),
    read_nullary writes 85 V (y := main_cst_12) rfl (by decide)]
  rfl

/-- THE REFERENCE'S RESULT BUFFER after the whole line, entry by entry. -/
theorem result_apply (b : Fin 4) (u : Fin 1) (d : Fin 128) (h w : Fin 256) :
    after (ops (F := Ideal)) V (Proc.devRef .tc main_v77) (ix5 b u d h w) = Haar.synth d.val h.val w.val fun k =>
      (V (Proc.devRef .tc main_arg0) : FVec Ideal S4x8x64x128x128 .f32)
        (ix5 b k (⟨d.val / 2, by omega⟩ : Fin 64) (⟨h.val / 2, by omega⟩ : Fin 128) (⟨w.val / 2, by omega⟩ : Fin 128)) := by
  rw [read_main_v77, mergeW_apply, read_main_v57, read_main_v67, mergeH_apply, mergeH_apply,
    read_main_v17, read_main_v27, read_main_v37, read_main_v47, mergeD_apply, mergeD_apply, mergeD_apply, mergeD_apply,
    read_main_v0, read_main_v1, read_main_v2, read_main_v3, read_main_v4, read_main_v5, read_main_v6, read_main_v7,
    read_main_arg0]
  rw [channel_apply _ 0 (by omega), channel_apply _ 1 (by omega), channel_apply _ 2 (by omega),
    channel_apply _ 3 (by omega), channel_apply _ 4 (by omega), channel_apply _ 5 (by omega),
    channel_apply _ 6 (by omega), channel_apply _ 7 (by omega)]
  rfl

/-- The reference's result buffer after the whole line is the array `Haar.G` of the argument's launch contents. -/
theorem result_eq : after (ops (F := Ideal)) V (Proc.devRef .tc main_v77) = Haar.G (V (Proc.devRef .tc main_arg0)) := by
  funext i
  obtain ⟨b, u, d, h, w, rfl⟩ : ∃ (b : Fin 4) (u : Fin 1) (d : Fin 128) (h w : Fin 256), i = ix5 b u d h w :=
    ⟨i 0, i 1, i 2, i 3, i 4, eq_ix5 i⟩
  rw [result_apply]
  rfl

/-- The reference's run, read: the result ends at `Haar.G` of the argument, the argument unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v77) = Haar.G (m ((c.tc : Thread nD τ).loc main_arg0))
      ∧ r.2.mem ((c.tc : Thread nD τ).loc main_arg0) = m ((c.tc : Thread nD τ).loc main_arg0) :=
  (θ_run defs _ _).mono (fun _ h c =>
      ⟨(h c main_v77).trans (result_eq (launchContents m c)),
       (h c main_arg0).trans (read_main_arg0 (launchContents m c))⟩)
    (ValueP.run_after m ρ)

end Cert.ReferenceIdeal.RefValue

end
-- ==== Proof.lean ====
/-
  A three-level inverse Haar wavelet transform: one gridded kernel against the plain array program.

  The argument holds eight subbands [4, 8, 64, 128, 128]; the result is [4, 1, 128, 256, 256].  A synthesis step along an
  axis takes a low and a high band to the even samples `(lo + hi) · c` and the odd samples `(lo − hi) · c`, interleaved
  along that axis, with `c` the single-precision constant nearest 1/√2 (the same binary word in both programs).  Both
  programs run the step along depth on the subband pairs (k, k + 4), then along height, then along width, with the same
  operations in the same order; so entry `(b, 0, d, h, w)` of either result is one and the same term `Haar.synth` of the
  parities of `d, h, w` and of the eight subband samples at `(b, ·, d / 2, h / 2, w / 2)` — the array `Haar.G`.  No law of
  arithmetic is needed, and the finiteness of the inputs is never used: the proof is where each program reads its samples.

  * The reference works on whole arrays: each step is read at an entry through its concatenation and reshape, and the
    result buffer is read back through the seven steps to the argument (`RefValue`), which gives `Haar.G` directly.
  * The kernel works block by block: grid point `(b, p)` turns input planes `8p … 8p + 7` of batch `b` into output planes
    `16p … 16p + 15`.  The body's stored block is read at an entry the same way (`BlockValue`); a block starts at an even
    plane, so it is a block of `Haar.G`; the 32 blocks tile the result array (`KernelValue`).

  The kernel's two frames are the generated ones; the reference's frame is its run with the result dropped.  The kernel
  and its idealization are the same text, so nothing is owed for that conjunct.
-/
import proofs.«123683_j66924180407100_2_alg».proof.Defs
import proofs.«123683_j66924180407100_2_alg».proof.Proof.Gen.Kernel
import proofs.«123683_j66924180407100_2_alg».proof.Proof.Gen.Kernel.Skeleton
import proofs.«123683_j66924180407100_2_alg».proof.Proof.Gen.Kernel.Launch
import proofs.«123683_j66924180407100_2_alg».proof.Proof.Gen.Kernel.Points
import proofs.«123683_j66924180407100_2_alg».proof.Proof.Gen.Kernel.Frame
import proofs.«123683_j66924180407100_2_alg».proof.Proof.Gen.KernelIdeal
import proofs.«123683_j66924180407100_2_alg».proof.Proof.Gen.KernelIdeal.Skeleton
import proofs.«123683_j66924180407100_2_alg».proof.Proof.Gen.KernelIdeal.Launch
import proofs.«123683_j66924180407100_2_alg».proof.Proof.Gen.KernelIdeal.Points
import proofs.«123683_j66924180407100_2_alg».proof.Proof.Gen.KernelIdeal.Frame
import proofs.«123683_j66924180407100_2_alg».proof.Proof.Gen.ReferenceIdeal
import proofs.«123683_j66924180407100_2_alg».proof.Proof.Gen.Pre_finite_inputs
import proofs.«123683_j66924180407100_2_alg».proof.Proof.Gen.KernelIdeal.Value
import proofs.«123683_j66924180407100_2_alg».proof.Proof.HaarSpec
import proofs.«123683_j66924180407100_2_alg».proof.Proof.KernelValue
import proofs.«123683_j66924180407100_2_alg».proof.Proof.RefValue
import Idealize.ShloMosaic.Adequacy
import Idealize.ShloMosaic.Init

noncomputable section

namespace Cert.Proof

open Idealize.ShloMosaic Idealize.SL.Sem

/-- The kernel as printed runs and leaves its argument unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with what it says about the result dropped. -/
theorem frame_reference : Cert.frame_ReferenceIdeal := fun m ρ _ =>
  (θ_run Cert.ReferenceIdeal.defs _ _).mono (fun _ h c => (h c).2) (Cert.ReferenceIdeal.RefValue.run m ρ)

/-- Over the extended reals both programs end with the result array at `Haar.G` of the (agreeing) argument arrays. -/
theorem algebraic : Cert.algebraic_KernelIdeal_ReferenceIdeal := by
  intro m ρ m' ρ' _ hagree
  refine ⟨fun c => Cert.Haar.G (m ((c.tc : Thread Cert.KernelIdeal.nD Cert.KernelIdeal.τ).loc Cert.KernelIdeal.main_arg0)),
    Cert.KernelIdeal.Whole.run m ρ, ?_⟩
  refine (θ_run Cert.ReferenceIdeal.defs _ _).mono (fun _ h c => ⟨(h c).1.trans ?_, (h c).2⟩)
    (Cert.ReferenceIdeal.RefValue.run m' ρ')
  rw [hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
